-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v50_0)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v41)) (v4 : (c : Dev Cert.KernelIdeal.nD) → Buf (Elt Ideal) ((c.tc : Thread Cert.KernelIdeal.nD Cert.KernelIdeal.τ).loc Cert.KernelIdeal.main_v50_3)) (v5 : (c : Dev Cert.KernelIdeal.nD) → Buf (Elt Ideal) ((c.tc : Thread Cert.KernelIdeal.nD Cert.KernelIdeal.τ).loc Cert.KernelIdeal.main_v50_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v50_0) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v41) = v3 c
          ∧ r.2.mem ((c.tc : Thread Cert.KernelIdeal.nD Cert.KernelIdeal.τ).loc Cert.KernelIdeal.main_v50_3) = v4 c
          ∧ r.2.mem ((c.tc : Thread Cert.KernelIdeal.nD Cert.KernelIdeal.τ).loc Cert.KernelIdeal.main_v50_1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_v75) = v4 c
          ∧ r.2.mem ((c.tc : Thread Cert.ReferenceIdeal.nD Cert.ReferenceIdeal.τ).loc Cert.ReferenceIdeal.main_v60) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128 : Shape := ⟨2, ![256, 128]⟩
abbrev S32000x1024 : Shape := ⟨2, ![32000, 1024]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel

variable [Facts]

def fn {F : FTy → Type} [FloatOps F] (main_arg0 : IVec S256x128 32) (main_arg1 : IVec S256x128 32) (main_arg2 : IVec S256x128 1) (main_arg3 : IVec S256x128 1) (main_arg4 : FVec F S32000x1024 .f32) (main_arg5 : FVec F S32000x1024 .f32) : IVec S_ 1 :=
  let main_v0 : FVec F S32000x1024 .f32 := Host.absf main_arg4
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_v4 : FVec F S32000x1024 .f32 := Host.absf main_arg5
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  main_v8
-- ==== Kernel.lean ====
abbrev S256x128 : Shape := ⟨2, ![256, 128]⟩
abbrev S32000x1024 : Shape := ⟨2, ![32000, 1024]⟩
abbrev S_ : Shape := ⟨0, ![]⟩
abbrev S256x128x1 : Shape := ⟨3, ![256, 128, 1]⟩
abbrev S256x128x1024 : Shape := ⟨3, ![256, 128, 1024]⟩
abbrev S256x130x1024 : Shape := ⟨3, ![256, 130, 1024]⟩
abbrev S128 : Shape := ⟨1, ![128]⟩
abbrev S1 : Shape := ⟨1, ![1]⟩
abbrev S1x128x1 : Shape := ⟨3, ![1, 128, 1]⟩
abbrev S256x1x128 : Shape := ⟨3, ![256, 1, 128]⟩
abbrev S256x128x128 : Shape := ⟨3, ![256, 128, 128]⟩
abbrev S8x128x1024 : Shape := ⟨3, ![8, 128, 1024]⟩
abbrev S8x1x128 : Shape := ⟨3, ![8, 1, 128]⟩
abbrev S8x128x1 : Shape := ⟨3, ![8, 128, 1]⟩
abbrev S8x128x128 : Shape := ⟨3, ![8, 128, 128]⟩
abbrev S8x128 : Shape := ⟨2, ![8, 128]⟩

abbrev nBuf : Space → Nat
  | .hbm => 78
  | .vmem => 20
  | .smem => 0
  | _ => 0

abbrev bufTy : (tb : Table) → Fin (tcTables nBuf tb) → BufTy
  | .hbm, ⟨0, _⟩ => ⟨S256x128, .i32⟩
  | .hbm, ⟨1, _⟩ => ⟨S256x128, .i32⟩
  | .hbm, ⟨2, _⟩ => ⟨S256x128, .i1⟩
  | .hbm, ⟨3, _⟩ => ⟨S256x128, .i1⟩
  | .hbm, ⟨4, _⟩ => ⟨S32000x1024, .f32⟩
  | .hbm, ⟨5, _⟩ => ⟨S32000x1024, .f32⟩
  | .hbm, ⟨6, _⟩ => ⟨S_, .i32⟩
  | .hbm, ⟨7, _⟩ => ⟨S256x128, .i32⟩
  | .hbm, ⟨8, _⟩ => ⟨S256x128, .i1⟩
  | .hbm, ⟨9, _⟩ => ⟨S_, .i32⟩
  | .hbm, ⟨10, _⟩ => ⟨S256x128, .i32⟩
  | .hbm, ⟨11, _⟩ => ⟨S256x128, .i32⟩
  | .hbm, ⟨12, _⟩ => ⟨S256x128, .i32⟩
  | .hbm, ⟨13, _⟩ => ⟨S256x128x1, .i32⟩
  | .hbm, ⟨14, _⟩ => ⟨S256x128x1024, .f32⟩
  | .hbm, ⟨15, _⟩ => ⟨S_, .i32⟩
  | .hbm, ⟨16, _⟩ => ⟨S_, .f32⟩
  | .hbm, ⟨17, _⟩ => ⟨S256x130x1024, .f32⟩
  | .hbm, ⟨18, _⟩ => ⟨S256x128x1024, .f32⟩
  | .hbm, ⟨19, _⟩ => ⟨S256x128x1024, .f32⟩
  | .hbm, ⟨20, _⟩ => ⟨S256x128x1024, .f32⟩
  | .hbm, ⟨21, _⟩ => ⟨S256x128x1024, .f32⟩
  | .hbm, ⟨22, _⟩ => ⟨S256x128x1024, .f32⟩
  | .hbm, ⟨23, _⟩ => ⟨S_, .f32⟩
  | .hbm, ⟨24, _⟩ => ⟨S128, .f32⟩
  | .hbm, ⟨25, _⟩ => ⟨S_, .i32⟩
  | .hbm, ⟨26, _⟩ => ⟨S1, .i32⟩
  | .hbm, ⟨27, _⟩ => ⟨S_, .f32⟩
  | .hbm, ⟨28, _⟩ => ⟨S128, .f32⟩
  | .hbm, ⟨29, _⟩ => ⟨S_, .i32⟩
  | .hbm, ⟨30, _⟩ => ⟨S1, .i32⟩
  | .hbm, ⟨31, _⟩ => ⟨S_, .f32⟩
  | .hbm, ⟨32, _⟩ => ⟨S128, .f32⟩
  | .hbm, ⟨33, _⟩ => ⟨S1x128x1, .f32⟩
  | .hbm, ⟨34, _⟩ => ⟨S256x128x1024, .f32⟩
  | .hbm, ⟨35, _⟩ => ⟨S256x128x1024, .f32⟩
  | .hbm, ⟨36, _⟩ => ⟨S_, .i32⟩
  | .hbm, ⟨37, _⟩ => ⟨S256x128, .i32⟩
  | .hbm, ⟨38, _⟩ => ⟨S256x128, .i1⟩
  | .hbm, ⟨39, _⟩ => ⟨S_, .i32⟩
  | .hbm, ⟨40, _⟩ => ⟨S256x128, .i32⟩
  | .hbm, ⟨41, _⟩ => ⟨S256x128, .i32⟩
  | .hbm, ⟨42, _⟩ => ⟨S256x128, .i32⟩
  | .hbm, ⟨43, _⟩ => ⟨S256x128x1, .i32⟩
  | .hbm, ⟨44, _⟩ => ⟨S256x128x1024, .f32⟩
  | .hbm, ⟨45, _⟩ => ⟨S_, .i32⟩
  | .hbm, ⟨46, _⟩ => ⟨S_, .f32⟩
  | .hbm, ⟨47, _⟩ => ⟨S256x130x1024, .f32⟩
  | .hbm, ⟨48, _⟩ => ⟨S256x128x1024, .f32⟩
  | .hbm, ⟨49, _⟩ => ⟨S256x128x1024, .f32⟩
  | .hbm, ⟨50, _⟩ => ⟨S256x128x1024, .f32⟩
  | .hbm, ⟨51, _⟩ => ⟨S256x128x1024, .f32⟩
  | .hbm, ⟨52, _⟩ => ⟨S256x128x1024, .f32⟩
  | .hbm, ⟨53, _⟩ => ⟨S_, .f32⟩
  | .hbm, ⟨54, _⟩ => ⟨S128, .f32⟩
  | .hbm, ⟨55, _⟩ => ⟨S_, .i32⟩
  | .hbm, ⟨56, _⟩ => ⟨S1, .i32⟩
  | .hbm, ⟨57, _⟩ => ⟨S_, .f32⟩
  | .hbm, ⟨58, _⟩ => ⟨S128, .f32⟩
  | .hbm, ⟨59, _⟩ => ⟨S_, .i32⟩
  | .hbm, ⟨60, _⟩ => ⟨S1, .i32⟩
  | .hbm, ⟨61, _⟩ => ⟨S_, .f32⟩
  | .hbm, ⟨62, _⟩ => ⟨S128, .f32⟩
  | .hbm, ⟨63, _⟩ => ⟨S1x128x1, .f32⟩
  | .hbm, ⟨64, _⟩ => ⟨S256x128x1024, .f32⟩
  | .hbm, ⟨65, _⟩ => ⟨S256x128x1024, .f32⟩
  | .hbm, ⟨66, _⟩ => ⟨S256x128x1024, .bf16⟩
  | .hbm, ⟨67, _⟩ => ⟨S256x128x1024, .bf16⟩
  | .hbm, ⟨68, _⟩ => ⟨S256x128, .i32⟩
  | .hbm, ⟨69, _⟩ => ⟨S256x128, .i32⟩
  | .hbm, ⟨70, _⟩ => ⟨S256x1x128, .i32⟩
  | .hbm, ⟨71, _⟩ => ⟨S256x128x1, .i32⟩
  | .hbm, ⟨72, _⟩ => ⟨S256x1x128, .i32⟩
  | .hbm, ⟨73, _⟩ => ⟨S256x128x1, .i32⟩
  | .hbm, ⟨74, _⟩ => ⟨S256x128x1024, .f32⟩
  | .hbm, ⟨75, _⟩ => ⟨S256x128x128, .f32⟩
  | .hbm, ⟨76, _⟩ => ⟨S256x128x128, .f32⟩
  | .hbm, ⟨77, _⟩ => ⟨S256x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x1x128, .i32⟩
  | .local _ .vmem, ⟨5, _⟩ => ⟨S8x1x128, .i32⟩
  | .local _ .vmem, ⟨6, _⟩ => ⟨S8x128x1, .i32⟩
  | .local _ .vmem, ⟨7, _⟩ => ⟨S8x128x1, .i32⟩
  | .local _ .vmem, ⟨8, _⟩ => ⟨S8x1x128, .i32⟩
  | .local _ .vmem, ⟨9, _⟩ => ⟨S8x1x128, .i32⟩
  | .local _ .vmem, ⟨10, _⟩ => ⟨S8x128x1, .i32⟩
  | .local _ .vmem, ⟨11, _⟩ => ⟨S8x128x1, .i32⟩
  | .local _ .vmem, ⟨12, _⟩ => ⟨S8x128x1024, .f32⟩
  | .local _ .vmem, ⟨13, _⟩ => ⟨S8x128x1024, .f32⟩
  | .local _ .vmem, ⟨14, _⟩ => ⟨S8x128x128, .f32⟩
  | .local _ .vmem, ⟨15, _⟩ => ⟨S8x128x128, .f32⟩
  | .local _ .vmem, ⟨16, _⟩ => ⟨S8x128x128, .f32⟩
  | .local _ .vmem, ⟨17, _⟩ => ⟨S8x128x128, .f32⟩
  | .local _ .vmem, ⟨18, _⟩ => ⟨S8x128x1024, .f32⟩
  | .local _ .vmem, ⟨19, _⟩ => ⟨S8x128x1024, .f32⟩
  | _, _ => ⟨S256x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_cst_11 : Ref sig .tc := ⟨.hbm, 57, rfl⟩
abbrev main_v36 : Ref sig .tc := ⟨.hbm, 58, rfl⟩
abbrev main_c_12 : Ref sig .tc := ⟨.hbm, 59, rfl⟩
abbrev main_v37 : Ref sig .tc := ⟨.hbm, 60, rfl⟩
abbrev main_cst_13 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50_0 : Ref sig .tc := ⟨.hbm, 74, rfl⟩
abbrev main_v50_1 : Ref sig .tc := ⟨.hbm, 75, rfl⟩
abbrev main_v50_2 : Ref sig .tc := ⟨.hbm, 76, rfl⟩
abbrev main_v50_3 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S256x128 : S_.BroadcastsInDim S256x128 (![] : Fin 0 → Fin S256x128.rank)
  bcast_S256x128_S256x128x1_0_1 : S256x128.BroadcastsInDim S256x128x1 (![0, 1] : Fin 2 → Fin S256x128x1.rank)
  pads_S256x128x1024_S256x130x1024_000_110_000 : S256x128x1024.Pads (![0, 1, 0] : Fin 3 → Nat) ![0, 1, 0] ![0, 0, 0] S256x130x1024
  h_S_ : 0 < S_.numel
  slices_S256x130x1024_S256x128x1024_0_0_0 : S256x130x1024.Slices ![0, 0, 0] S256x128x1024
  slices_S256x130x1024_S256x128x1024_0_1_0 : S256x130x1024.Slices ![0, 1, 0] S256x128x1024
  slices_S256x130x1024_S256x128x1024_0_2_0 : S256x130x1024.Slices ![0, 2, 0] S256x128x1024
  bcast_S_S128 : S_.BroadcastsInDim S128 (![] : Fin 0 → Fin S128.rank)
  bcast_S_S1 : S_.BroadcastsInDim S1 (![] : Fin 0 → Fin S1.rank)
  bcast_S128_S1x128x1_1 : S128.BroadcastsInDim S1x128x1 (![1] : Fin 1 → Fin S1x128x1.rank)
  bcast_S1x128x1_S256x128x1024_0_1_2 : S1x128x1.BroadcastsInDim S256x128x1024 (![0, 1, 2] : Fin 3 → Fin S256x128x1024.rank)
  bitsLt_bf16_f32 : FTy.bits .bf16 < FTy.bits .f32
  natLt_1_32 : 1 < 32
  bcast_S256x128_S256x1x128_0_2 : S256x128.BroadcastsInDim S256x1x128 (![0, 2] : Fin 2 → Fin S256x1x128.rank)
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  inb_S8x128x1_S8x128x1_0_0_0 : ∀ a, (![0, 0, 0] : Fin 3 → Nat) a + S8x128x1.size a ≤ S8x128x1.size a
  h_S8x128x1 : 0 < S8x128x1.numel
  shapeCasts_S8x128x1_S8x128x1 : S8x128x1.ShapeCasts S8x128x1
  inb_S8x1x128_S8x1x128_0_0_0 : ∀ a, (![0, 0, 0] : Fin 3 → Nat) a + S8x1x128.size a ≤ S8x1x128.size a
  h_S8x1x128 : 0 < S8x1x128.numel
  shapeCasts_S8x1x128_S8x1x128 : S8x1x128.ShapeCasts S8x1x128
  broadcasts_S8x128x1_S8x128x128 : S8x128x1.Broadcasts S8x128x128
  broadcasts_S8x1x128_S8x128x128 : S8x1x128.Broadcasts S8x128x128
  reduces_S8x128x128_S8x128 : S8x128x128.Reduces [2] S8x128
  shapeCasts_S8x128_S8x128x1 : S8x128.ShapeCasts S8x128x1
  transposes_S8x128x128_p0_2_1_S8x128x128 : S8x128x128.Transposes [0, 2, 1] S8x128x128
  inb_S8x128x128_S8x128x128_0_0_0 : ∀ a, (![0, 0, 0] : Fin 3 → Nat) a + S8x128x128.size a ≤ S8x128x128.size a
  h_S8x128x128 : 0 < S8x128x128.numel
  gather_S32000x1024_S256x128x1_S256x128x1024_2_0_n_n_0_2_11024_wf : GatherDims.WF S32000x1024 S256x128x1 S256x128x1024 [2] [0] [] [0] [] 2 ![1, 1024]
  scatter_S128_S1_S__n_0_0_0_wf : ScatterDims.WF S128 S1 S_ [] [0] [0] 0
  dot_S8x128x1024_S8x128x1024_S8x128x128_2_2_1_1_0_0_wf : DotDims.WF S8x128x1024 S8x128x1024 S8x128x128 [2] [2] [1] [1] [0] [0]
  dot_S8x128x128_S8x128x1024_S8x128x1024_2_1_1_2_0_0_wf : DotDims.WF S8x128x128 S8x128x1024 S8x128x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S256x128x1024.size a
  hwx0_0 : ∀ i : grid0.Coords, EltTy.bits .bf16 = 32 ∨ (Rect.block (s := S256x128x1024) S8x128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1024.size a ≤ S256x128x1024.size a
  hwx0_1 : ∀ i : grid0.Coords, EltTy.bits .bf16 = 32 ∨ (Rect.block (s := S256x128x1024) S8x128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x128.size a ≤ S256x1x128.size a
  hwx0_2 : ∀ i : grid0.Coords, EltTy.bits .i32 = 32 ∨ (Rect.block (s := S256x1x128) S8x1x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x1.size a ≤ S256x128x1.size a
  hwx0_3 : ∀ i : grid0.Coords, EltTy.bits .i32 = 32 ∨ (Rect.block (s := S256x128x1) S8x128x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1x128.size a ≤ S256x1x128.size a
  hwx0_4 : ∀ i : grid0.Coords, EltTy.bits .i32 = 32 ∨ (Rect.block (s := S256x1x128) S8x1x128.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128x1.size a ≤ S256x128x1.size a
  hwx0_5 : ∀ i : grid0.Coords, EltTy.bits .i32 = 32 ∨ (Rect.block (s := S256x128x1) S8x128x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128x1024.size a ≤ S256x128x1024.size a
  hwx0_6 : ∀ i : grid0.Coords, EltTy.bits .f32 = 32 ∨ (Rect.block (s := S256x128x1024) S8x128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128x128.size a ≤ S256x128x128.size a
  hwx0_7 : ∀ i : grid0.Coords, EltTy.bits .f32 = 32 ∨ (Rect.block (s := S256x128x128) S8x128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128x128.size a ≤ S256x128x128.size a
  hwx0_8 : ∀ i : grid0.Coords, EltTy.bits .f32 = 32 ∨ (Rect.block (s := S256x128x128) S8x128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128x1024.size a ≤ S256x128x1024.size a
  hwx0_9 : ∀ i : grid0.Coords, EltTy.bits .f32 = 32 ∨ (Rect.block (s := S256x128x1024) S8x128x1024.size (cc0_transform_9 i) (hinb0_9 i)).WholeWords (EltTy.packing .f32)

variable [Facts₀]

def gather_S32000x1024_S256x128x1_S256x128x1024_2_0_n_n_0_2_11024 : GatherDims S32000x1024 S256x128x1 S256x128x1024 where
  offsetDims := [2]
  collapsedSliceDims := [0]
  operandBatchingDims := []
  startIndicesBatchingDims := []
  startIndexMap := [0]
  indexVectorDim := 2
  sliceSizes := ![1, 1024]
  wf := gather_S32000x1024_S256x128x1_S256x128x1024_2_0_n_n_0_2_11024_wf
def scatter_S128_S1_S__n_0_0_0 : ScatterDims S128 S1 S_ where
  updateWindowDims := []
  insertedWindowDims := [0]
  scatterDimsToOperandDims := [0]
  indexVectorDim := 0
  wf := scatter_S128_S1_S__n_0_0_0_wf
def dot_S8x128x1024_S8x128x1024_S8x128x128_2_2_1_1_0_0 : DotDims S8x128x1024 S8x128x1024 S8x128x128 where
  lhsContracting := [2]
  rhsContracting := [2]
  lhsNonContracting := [1]
  rhsNonContracting := [1]
  lhsBatch := [0]
  rhsBatch := [0]
  wf := dot_S8x128x1024_S8x128x1024_S8x128x128_2_2_1_1_0_0_wf
def dot_S8x128x128_S8x128x1024_S8x128x1024_2_1_1_2_0_0 : DotDims S8x128x128 S8x128x1024 S8x128x1024 where
  lhsContracting := [2]
  rhsContracting := [1]
  lhsNonContracting := [1]
  rhsNonContracting := [2]
  lhsBatch := [0]
  rhsBatch := [0]
  wf := dot_S8x128x128_S8x128x1024_S8x128x1024_2_1_1_2_0_0_wf

abbrev win0_0 : Pipeline.Window sig grid0 :=
  Pipeline.Window.ofSpec (Memref.whole main_v42) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S8x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S8x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S8x128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v48) S8x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v49) S8x128x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v50_0) S8x128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v50_1) S8x128x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v50_2) S8x128x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v50_3) S8x128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S256x128 : Shape := ⟨2, ![256, 128]⟩
abbrev S32000x1024 : Shape := ⟨2, ![32000, 1024]⟩
abbrev S_ : Shape := ⟨0, ![]⟩
abbrev S256x128x1 : Shape := ⟨3, ![256, 128, 1]⟩
abbrev S256x128x1024 : Shape := ⟨3, ![256, 128, 1024]⟩
abbrev S256x130x1024 : Shape := ⟨3, ![256, 130, 1024]⟩
abbrev S128 : Shape := ⟨1, ![128]⟩
abbrev S1 : Shape := ⟨1, ![1]⟩
abbrev S1x128x1 : Shape := ⟨3, ![1, 128, 1]⟩
abbrev S256x1x128 : Shape := ⟨3, ![256, 1, 128]⟩
abbrev S256x128x128 : Shape := ⟨3, ![256, 128, 128]⟩

abbrev nBuf : Space → Nat
  | .hbm => 112
  | .vmem => 0
  | .smem => 0
  | _ => 0

abbrev bufTy : (tb : Table) → Fin (tcTables nBuf tb) → BufTy
  | .hbm, ⟨0, _⟩ => ⟨S256x128, .i32⟩
  | .hbm, ⟨1, _⟩ => ⟨S256x128, .i32⟩
  | .hbm, ⟨2, _⟩ => ⟨S256x128, .i1⟩
  | .hbm, ⟨3, _⟩ => ⟨S256x128, .i1⟩
  | .hbm, ⟨4, _⟩ => ⟨S32000x1024, .f32⟩
  | .hbm, ⟨5, _⟩ => ⟨S32000x1024, .f32⟩
  | .hbm, ⟨6, _⟩ => ⟨S_, .i32⟩
  | .hbm, ⟨7, _⟩ => ⟨S256x128, .i32⟩
  | .hbm, ⟨8, _⟩ => ⟨S256x128, .i1⟩
  | .hbm, ⟨9, _⟩ => ⟨S_, .i32⟩
  | .hbm, ⟨10, _⟩ => ⟨S256x128, .i32⟩
  | .hbm, ⟨11, _⟩ => ⟨S256x128, .i32⟩
  | .hbm, ⟨12, _⟩ => ⟨S256x128, .i32⟩
  | .hbm, ⟨13, _⟩ => ⟨S256x128x1, .i32⟩
  | .hbm, ⟨14, _⟩ => ⟨S256x128x1024, .f32⟩
  | .hbm, ⟨15, _⟩ => ⟨S_, .i32⟩
  | .hbm, ⟨16, _⟩ => ⟨S_, .f32⟩
  | .hbm, ⟨17, _⟩ => ⟨S256x130x1024, .f32⟩
  | .hbm, ⟨18, _⟩ => ⟨S256x128x1024, .f32⟩
  | .hbm, ⟨19, _⟩ => ⟨S256x128x1024, .f32⟩
  | .hbm, ⟨20, _⟩ => ⟨S256x128x1024, .f32⟩
  | .hbm, ⟨21, _⟩ => ⟨S256x128x1024, .f32⟩
  | .hbm, ⟨22, _⟩ => ⟨S256x128x1024, .f32⟩
  | .hbm, ⟨23, _⟩ => ⟨S_, .f32⟩
  | .hbm, ⟨24, _⟩ => ⟨S128, .f32⟩
  | .hbm, ⟨25, _⟩ => ⟨S_, .i32⟩
  | .hbm, ⟨26, _⟩ => ⟨S1, .i32⟩
  | .hbm, ⟨27, _⟩ => ⟨S_, .f32⟩
  | .hbm, ⟨28, _⟩ => ⟨S128, .f32⟩
  | .hbm, ⟨29, _⟩ => ⟨S_, .i32⟩
  | .hbm, ⟨30, _⟩ => ⟨S1, .i32⟩
  | .hbm, ⟨31, _⟩ => ⟨S_, .f32⟩
  | .hbm, ⟨32, _⟩ => ⟨S128, .f32⟩
  | .hbm, ⟨33, _⟩ => ⟨S1x128x1, .f32⟩
  | .hbm, ⟨34, _⟩ => ⟨S256x128x1024, .f32⟩
  | .hbm, ⟨35, _⟩ => ⟨S256x128x1024, .f32⟩
  | .hbm, ⟨36, _⟩ => ⟨S_, .i32⟩
  | .hbm, ⟨37, _⟩ => ⟨S256x128, .i32⟩
  | .hbm, ⟨38, _⟩ => ⟨S256x128, .i1⟩
  | .hbm, ⟨39, _⟩ => ⟨S_, .i32⟩
  | .hbm, ⟨40, _⟩ => ⟨S256x128, .i32⟩
  | .hbm, ⟨41, _⟩ => ⟨S256x128, .i32⟩
  | .hbm, ⟨42, _⟩ => ⟨S256x128, .i32⟩
  | .hbm, ⟨43, _⟩ => ⟨S256x128x1, .i32⟩
  | .hbm, ⟨44, _⟩ => ⟨S256x128x1024, .f32⟩
  | .hbm, ⟨45, _⟩ => ⟨S_, .i32⟩
  | .hbm, ⟨46, _⟩ => ⟨S_, .f32⟩
  | .hbm, ⟨47, _⟩ => ⟨S256x130x1024, .f32⟩
  | .hbm, ⟨48, _⟩ => ⟨S256x128x1024, .f32⟩
  | .hbm, ⟨49, _⟩ => ⟨S256x128x1024, .f32⟩
  | .hbm, ⟨50, _⟩ => ⟨S256x128x1024, .f32⟩
  | .hbm, ⟨51, _⟩ => ⟨S256x128x1024, .f32⟩
  | .hbm, ⟨52, _⟩ => ⟨S256x128x1024, .f32⟩
  | .hbm, ⟨53, _⟩ => ⟨S_, .f32⟩
  | .hbm, ⟨54, _⟩ => ⟨S128, .f32⟩
  | .hbm, ⟨55, _⟩ => ⟨S_, .i32⟩
  | .hbm, ⟨56, _⟩ => ⟨S1, .i32⟩
  | .hbm, ⟨57, _⟩ => ⟨S_, .f32⟩
  | .hbm, ⟨58, _⟩ => ⟨S128, .f32⟩
  | .hbm, ⟨59, _⟩ => ⟨S_, .i32⟩
  | .hbm, ⟨60, _⟩ => ⟨S1, .i32⟩
  | .hbm, ⟨61, _⟩ => ⟨S_, .f32⟩
  | .hbm, ⟨62, _⟩ => ⟨S128, .f32⟩
  | .hbm, ⟨63, _⟩ => ⟨S1x128x1, .f32⟩
  | .hbm, ⟨64, _⟩ => ⟨S256x128x1024, .f32⟩
  | .hbm, ⟨65, _⟩ => ⟨S256x128x1024, .f32⟩
  | .hbm, ⟨66, _⟩ => ⟨S256x128x1, .i1⟩
  | .hbm, ⟨67, _⟩ => ⟨S256x1x128, .i1⟩
  | .hbm, ⟨68, _⟩ => ⟨S256x128x128, .i1⟩
  | .hbm, ⟨69, _⟩ => ⟨S256x128x128, .i1⟩
  | .hbm, ⟨70, _⟩ => ⟨S256x128x128, .i1⟩
  | .hbm, ⟨71, _⟩ => ⟨S256x128x128, .f32⟩
  | .hbm, ⟨72, _⟩ => ⟨S256x128x128, .i1⟩
  | .hbm, ⟨73, _⟩ => ⟨S_, .f32⟩
  | .hbm, ⟨74, _⟩ => ⟨S_, .f32⟩
  | .hbm, ⟨75, _⟩ => ⟨S256x128x128, .f32⟩
  | .hbm, ⟨76, _⟩ => ⟨S256x128x128, .f32⟩
  | .hbm, ⟨77, _⟩ => ⟨S_, .f32⟩
  | .hbm, ⟨78, _⟩ => ⟨S256x128, .f32⟩
  | .hbm, ⟨79, _⟩ => ⟨S_, .f32⟩
  | .hbm, ⟨80, _⟩ => ⟨S256x128, .f32⟩
  | .hbm, ⟨81, _⟩ => ⟨S256x128, .f32⟩
  | .hbm, ⟨82, _⟩ => ⟨S256x128x1, .f32⟩
  | .hbm, ⟨83, _⟩ => ⟨S256x128x128, .f32⟩
  | .hbm, ⟨84, _⟩ => ⟨S256x128x128, .f32⟩
  | .hbm, ⟨85, _⟩ => ⟨S256x128x128, .f32⟩
  | .hbm, ⟨86, _⟩ => ⟨S_, .f32⟩
  | .hbm, ⟨87, _⟩ => ⟨S256x128, .f32⟩
  | .hbm, ⟨88, _⟩ => ⟨S256x128x1, .f32⟩
  | .hbm, ⟨89, _⟩ => ⟨S256x128x128, .f32⟩
  | .hbm, ⟨90, _⟩ => ⟨S256x128x128, .f32⟩
  | .hbm, ⟨91, _⟩ => ⟨S256x128x1024, .f32⟩
  | .hbm, ⟨92, _⟩ => ⟨S256x128x128, .f32⟩
  | .hbm, ⟨93, _⟩ => ⟨S_, .f32⟩
  | .hbm, ⟨94, _⟩ => ⟨S_, .f32⟩
  | .hbm, ⟨95, _⟩ => ⟨S256x128x128, .f32⟩
  | .hbm, ⟨96, _⟩ => ⟨S256x128x128, .f32⟩
  | .hbm, ⟨97, _⟩ => ⟨S_, .f32⟩
  | .hbm, ⟨98, _⟩ => ⟨S256x128, .f32⟩
  | .hbm, ⟨99, _⟩ => ⟨S_, .f32⟩
  | .hbm, ⟨100, _⟩ => ⟨S256x128, .f32⟩
  | .hbm, ⟨101, _⟩ => ⟨S256x128, .f32⟩
  | .hbm, ⟨102, _⟩ => ⟨S256x128x1, .f32⟩
  | .hbm, ⟨103, _⟩ => ⟨S256x128x128, .f32⟩
  | .hbm, ⟨104, _⟩ => ⟨S256x128x128, .f32⟩
  | .hbm, ⟨105, _⟩ => ⟨S256x128x128, .f32⟩
  | .hbm, ⟨106, _⟩ => ⟨S_, .f32⟩
  | .hbm, ⟨107, _⟩ => ⟨S256x128, .f32⟩
  | .hbm, ⟨108, _⟩ => ⟨S256x128x1, .f32⟩
  | .hbm, ⟨109, _⟩ => ⟨S256x128x128, .f32⟩
  | .hbm, ⟨110, _⟩ => ⟨S256x128x128, .f32⟩
  | .hbm, ⟨111, _⟩ => ⟨S256x128x1024, .f32⟩
  | _, _ => ⟨S256x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_cst_11 : Ref sig .tc := ⟨.hbm, 57, rfl⟩
abbrev main_v36 : Ref sig .tc := ⟨.hbm, 58, rfl⟩
abbrev main_c_12 : Ref sig .tc := ⟨.hbm, 59, rfl⟩
abbrev main_v37 : Ref sig .tc := ⟨.hbm, 60, rfl⟩
abbrev main_cst_13 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_14 : Ref sig .tc := ⟨.hbm, 73, rfl⟩
abbrev main_call2_v0 : Ref sig .tc := ⟨.hbm, 74, rfl⟩
abbrev main_call2_v1 : Ref sig .tc := ⟨.hbm, 75, rfl⟩
abbrev main_v49 : Ref sig .tc := ⟨.hbm, 76, rfl⟩
abbrev main_cst_15 : Ref sig .tc := ⟨.hbm, 77, rfl⟩
abbrev main_v50 : Ref sig .tc := ⟨.hbm, 78, rfl⟩
abbrev main_cst_16 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_17 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_18 : Ref sig .tc := ⟨.hbm, 93, rfl⟩
abbrev main_call3_v0 : Ref sig .tc := ⟨.hbm, 94, rfl⟩
abbrev main_call3_v1 : Ref sig .tc := ⟨.hbm, 95, rfl⟩
abbrev main_v63 : Ref sig .tc := ⟨.hbm, 96, rfl⟩
abbrev main_cst_19 : Ref sig .tc := ⟨.hbm, 97, rfl⟩
abbrev main_v64 : Ref sig .tc := ⟨.hbm, 98, rfl⟩
abbrev main_cst_20 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_21 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩

abbrev nD : Nat := 1
abbrev τ : Topo := Topo.v7x

variable {F : FTy → Type} [FloatOps F]

class Facts₀ : Prop where
  bcast_S_S256x128 : S_.BroadcastsInDim S256x128 (![] : Fin 0 → Fin S256x128.rank)
  bcast_S256x128_S256x128x1_0_1 : S256x128.BroadcastsInDim S256x128x1 (![0, 1] : Fin 2 → Fin S256x128x1.rank)
  pads_S256x128x1024_S256x130x1024_000_110_000 : S256x128x1024.Pads (![0, 1, 0] : Fin 3 → Nat) ![0, 1, 0] ![0, 0, 0] S256x130x1024
  h_S_ : 0 < S_.numel
  slices_S256x130x1024_S256x128x1024_0_0_0 : S256x130x1024.Slices ![0, 0, 0] S256x128x1024
  slices_S256x130x1024_S256x128x1024_0_1_0 : S256x130x1024.Slices ![0, 1, 0] S256x128x1024
  slices_S256x130x1024_S256x128x1024_0_2_0 : S256x130x1024.Slices ![0, 2, 0] S256x128x1024
  bcast_S_S128 : S_.BroadcastsInDim S128 (![] : Fin 0 → Fin S128.rank)
  bcast_S_S1 : S_.BroadcastsInDim S1 (![] : Fin 0 → Fin S1.rank)
  bcast_S128_S1x128x1_1 : S128.BroadcastsInDim S1x128x1 (![1] : Fin 1 → Fin S1x128x1.rank)
  bcast_S1x128x1_S256x128x1024_0_1_2 : S1x128x1.BroadcastsInDim S256x128x1024 (![0, 1, 2] : Fin 3 → Fin S256x128x1024.rank)
  bcast_S256x128_S256x1x128_0_2 : S256x128.BroadcastsInDim S256x1x128 (![0, 2] : Fin 2 → Fin S256x1x128.rank)
  bcast_S256x128x1_S256x128x128_0_1_2 : S256x128x1.BroadcastsInDim S256x128x128 (![0, 1, 2] : Fin 3 → Fin S256x128x128.rank)
  bcast_S256x1x128_S256x128x128_0_1_2 : S256x1x128.BroadcastsInDim S256x128x128 (![0, 1, 2] : Fin 3 → Fin S256x128x128.rank)
  transposes_S256x128x128_S256x128x128_0_2_1 : S256x128x128.Transposes [0, 2, 1] S256x128x128
  bcast_S_S256x128x128 : S_.BroadcastsInDim S256x128x128 (![] : Fin 0 → Fin S256x128x128.rank)
  reducesTo_S256x128x128_S256x128_d2 : S256x128x128.ReducesTo [2] S256x128
  gather_S32000x1024_S256x128x1_S256x128x1024_2_0_n_n_0_2_11024_wf : GatherDims.WF S32000x1024 S256x128x1 S256x128x1024 [2] [0] [] [0] [] 2 ![1, 1024]
  scatter_S128_S1_S__n_0_0_0_wf : ScatterDims.WF S128 S1 S_ [] [0] [0] 0
  dot_S256x128x1024_S256x128x1024_S256x128x128_2_2_1_1_0_0_wf : DotDims.WF S256x128x1024 S256x128x1024 S256x128x128 [2] [2] [1] [1] [0] [0]
  dot_S256x128x128_S256x128x1024_S256x128x1024_2_1_1_2_0_0_wf : DotDims.WF S256x128x128 S256x128x1024 S256x128x1024 [2] [1] [1] [2] [0] [0]

variable [Facts₀]

def gather_S32000x1024_S256x128x1_S256x128x1024_2_0_n_n_0_2_11024 : GatherDims S32000x1024 S256x128x1 S256x128x1024 where
  offsetDims := [2]
  collapsedSliceDims := [0]
  operandBatchingDims := []
  startIndicesBatchingDims := []
  startIndexMap := [0]
  indexVectorDim := 2
  sliceSizes := ![1, 1024]
  wf := gather_S32000x1024_S256x128x1_S256x128x1024_2_0_n_n_0_2_11024_wf
def scatter_S128_S1_S__n_0_0_0 : ScatterDims S128 S1 S_ where
  updateWindowDims := []
  insertedWindowDims := [0]
  scatterDimsToOperandDims := [0]
  indexVectorDim := 0
  wf := scatter_S128_S1_S__n_0_0_0_wf
def dot_S256x128x1024_S256x128x1024_S256x128x128_2_2_1_1_0_0 : DotDims S256x128x1024 S256x128x1024 S256x128x128 where
  lhsContracting := [2]
  rhsContracting := [2]
  lhsNonContracting := [1]
  rhsNonContracting := [1]
  lhsBatch := [0]
  rhsBatch := [0]
  wf := dot_S256x128x1024_S256x128x1024_S256x128x128_2_2_1_1_0_0_wf
def dot_S256x128x128_S256x128x1024_S256x128x1024_2_1_1_2_0_0 : DotDims S256x128x128 S256x128x1024 S256x128x1024 where
  lhsContracting := [2]
  rhsContracting := [1]
  lhsNonContracting := [1]
  rhsNonContracting := [2]
  lhsBatch := [0]
  rhsBatch := [0]
  wf := dot_S256x128x128_S256x128x1024_S256x128x1024_2_1_1_2_0_0_wf

class Facts : Prop extends Facts₀ where

variable [Facts]
-- ==== Proof.AttnSpec.lean ====
/-
  Two-way masked attention, index by index on the extended reals.

  For one batch element, with target rows `T t ·` and source rows `S s ·` (both of length `d`) and a mask bit
  `mk t s` ("target position t and source position s are both valid"):
  * the masked score of (t, s) is the inner product `∑ k, T t k * S s k` where the mask bit is set and the fill
    value (the f32 word of -999) elsewhere;
  * the target-to-source weights are the softmax of each score row t over s, written as the programs compute it:
    the row maximum (taken from -∞, and once more against -∞) subtracted, the exponential, and the quotient by the
    row's sum of exponentials;
  * the source attention is the weights times the source rows;
  * the source-to-target scores are the transposed masked scores masked once more (by `mk' s t`), their softmax
    over t gives the source-to-target weights, and the target attention is those weights times the target rows.
  Every batch element is treated alike and independently, so the whole arrays are these functions of batch `b`'s rows
  (`rowsOf`) and batch `b`'s mask (`maskOf`: the conjunction of the two validity bits).
-/
import Idealize.ShloMosaic.PureOps.Ideal
import Idealize.ShloMosaic.Lib.ValueIdx

noncomputable section

namespace Cert.TwoWayAttn

open Idealize.ShloMosaic Idealize.ShloMosaic.ValueIdx

/-- The value a masked-out score is replaced by: the f32 word of -999. -/
abbrev fill : EReal := Ideal.ofBits .f32 0xC479C000#32

/-- The f32 word of -∞, from which a row maximum is taken. -/
abbrev negInf : EReal := Ideal.ofBits .f32 0xFF800000#32

variable {B n d : Nat}

/-- The maximum of a row, taken from -∞ and compared with -∞ once more (as both programs do). -/
def rowMax (f : Fin n → EReal) : EReal := max negInf ((Finset.univ : Finset (Fin n)).fold max negInf f)

/-- The softmax of a row at position `j`: `exp (f j - max) / ∑ k, exp (f k - max)`. -/
def softRow (f : Fin n → EReal) (j : Fin n) : EReal :=
  Ideal.div (Ideal.exp (f j - rowMax f)) (∑ k : Fin n, Ideal.exp (f k - rowMax f))

/-- The masked score of target position `t` against source position `s`. -/
def score (T S : Fin n → Fin d → EReal) (mk : Fin n → Fin n → BitVec 1) (t s : Fin n) : EReal :=
  Scalar.select (mk t s) (∑ k : Fin d, T t k * S s k) fill

/-- The transposed masked score, masked once more: source position `s` against target position `t`. -/
def scoreT (T S : Fin n → Fin d → EReal) (mk mk' : Fin n → Fin n → BitVec 1) (s t : Fin n) : EReal :=
  Scalar.select (mk' s t) (score T S mk t s) fill

/-- Target-to-source weights: the softmax of score row `t`, at `s`. -/
def taSoft (T S : Fin n → Fin d → EReal) (mk : Fin n → Fin n → BitVec 1) (t s : Fin n) : EReal :=
  softRow (fun s' => score T S mk t s') s

/-- Source attention: the target-to-source weights of row `t` times the source rows, at feature `k`. -/
def srcAtt (T S : Fin n → Fin d → EReal) (mk : Fin n → Fin n → BitVec 1) (t : Fin n) (k : Fin d) : EReal :=
  ∑ s : Fin n, taSoft T S mk t s * S s k

/-- Source-to-target weights: the softmax of transposed-score row `s`, at `t`. -/
def atSoft (T S : Fin n → Fin d → EReal) (mk mk' : Fin n → Fin n → BitVec 1) (s t : Fin n) : EReal :=
  softRow (fun t' => scoreT T S mk mk' s t') t

/-- Target attention: the source-to-target weights of row `s` times the target rows, at feature `k`. -/
def tgtAtt (T S : Fin n → Fin d → EReal) (mk mk' : Fin n → Fin n → BitVec 1) (s : Fin n) (k : Fin d) : EReal :=
  ∑ t : Fin n, atSoft T S mk mk' s t * T t k

/-! ## Whole arrays: every batch element alike -/

/-- Batch `b`'s rows of a `[B, n, d]` array. -/
def rowsOf (A : (⟨3, ![B, n, d]⟩ : Shape).Idx → EReal) (b : Fin B) : Fin n → Fin d → EReal :=
  fun r k => A (ix3 b r k)

/-- Batch `b`'s mask at (t, s): source position `s` valid and target position `t` valid. -/
def maskOf (sm tm : (⟨2, ![B, n]⟩ : Shape).Idx → BitVec 1) (b : Fin B) : Fin n → Fin n → BitVec 1 :=
  fun t s => IntOp.andi (sm (ix2 b s)) (tm (ix2 b t))

/-- The same mask read at (s, t). -/
def maskOfT (sm tm : (⟨2, ![B, n]⟩ : Shape).Idx → BitVec 1) (b : Fin B) : Fin n → Fin n → BitVec 1 :=
  fun s t => IntOp.andi (sm (ix2 b s)) (tm (ix2 b t))

/-- The target-to-source weights `[B, n, n]` at (b, t, s). -/
def taSoftArr (Tarr Sarr : (⟨3, ![B, n, d]⟩ : Shape).Idx → EReal) (sm tm : (⟨2, ![B, n]⟩ : Shape).Idx → BitVec 1) :
    (⟨3, ![B, n, n]⟩ : Shape).Idx → EReal :=
  fun i => taSoft (rowsOf Tarr (i 0)) (rowsOf Sarr (i 0)) (maskOf sm tm (i 0)) (i 1) (i 2)

/-- The source attention `[B, n, d]` at (b, t, k). -/
def srcAttArr (Tarr Sarr : (⟨3, ![B, n, d]⟩ : Shape).Idx → EReal) (sm tm : (⟨2, ![B, n]⟩ : Shape).Idx → BitVec 1) :
    (⟨3, ![B, n, d]⟩ : Shape).Idx → EReal :=
  fun i => srcAtt (rowsOf Tarr (i 0)) (rowsOf Sarr (i 0)) (maskOf sm tm (i 0)) (i 1) (i 2)

/-- The source-to-target weights `[B, n, n]` at (b, s, t). -/
def atSoftArr (Tarr Sarr : (⟨3, ![B, n, d]⟩ : Shape).Idx → EReal) (sm tm : (⟨2, ![B, n]⟩ : Shape).Idx → BitVec 1) :
    (⟨3, ![B, n, n]⟩ : Shape).Idx → EReal :=
  fun i => atSoft (rowsOf Tarr (i 0)) (rowsOf Sarr (i 0)) (maskOf sm tm (i 0)) (maskOfT sm tm (i 0)) (i 1) (i 2)

/-- The target attention `[B, n, d]` at (b, s, k). -/
def tgtAttArr (Tarr Sarr : (⟨3, ![B, n, d]⟩ : Shape).Idx → EReal) (sm tm : (⟨2, ![B, n]⟩ : Shape).Idx → BitVec 1) :
    (⟨3, ![B, n, d]⟩ : Shape).Idx → EReal :=
  fun i => tgtAtt (rowsOf Tarr (i 0)) (rowsOf Sarr (i 0)) (maskOf sm tm (i 0)) (maskOfT sm tm (i 0)) (i 1) (i 2)

/-! ## The mask as the kernel computes it -/

/-- Two validity bits widened to 32-bit integers and multiplied are non-zero exactly when both bits are set: the
    kernel's `(a * b) != 0` on 0/1 integers is the conjunction of the two bits. -/
theorem mul_ne_zero_eq_and (a b : BitVec 1) :
    IntOp.cmpi .ne (IntOp.muli (a.setWidth 32) (b.setWidth 32)) 0#32 = IntOp.andi b a := by
  rcases BitVec.eq_zero_or_eq_one a with h | h <;> rcases BitVec.eq_zero_or_eq_one b with h' | h' <;>
    subst h <;> subst h' <;> decide

end Cert.TwoWayAttn

end
-- ==== Proof.LibLastAxisRows.lean ====
/-
  Row statistics along the LAST axis of a rank-3 vector, at the ideal values, for any extents a, b, c.

  A softmax (or any normalisation with keepdims) over the last axis of an [a, b, c] vector takes a statistic of each
  row (p, q, ·) — its maximum, its sum — as a `vector.multi_reduction` over axis 2 into [a, b], and puts it back
  beside every entry of the row by a `vector.shape_cast` [a, b] → [a, b, 1] followed by a `vector.broadcast`
  [a, b, 1] → [a, b, c]. Read at (p, q, k):
  * `lift_last`: the reduced index (p, q) with coordinate `k` put back on axis 2 is (p, q, k);
  * `multiReduction_add_last`: the `<add>` reduction at (p, q) is `∑ k, src (p, q, k)`;
  * `multiReduction_maximumf_last`: the `<maximumf>` reduction at (p, q) is the fold of `max`, from the accumulator's
    value, over `k ↦ src (p, q, k)`;
  * `keepdims_last`: the cast and the broadcast read, at (p, q, k), the statistic at (p, q) — for `c = 1` too, and
    whatever `a` and `b` are.
  The reduction lemmas take the format and accumulator facts as hypotheses typed the way the operation's own
  arguments are (`acc = FKind.add.neutral φ hφ`), so a proof applies them by `refine (… ).trans ?_` to a printed term.
-/
import Idealize.ShloMosaic.Lib.Pipeline.Value
import Idealize.ShloMosaic.Lib.ValueIdx
import Idealize.ShloMosaic.PureOps.Ideal.Laws

noncomputable section

namespace Idealize.ShloMosaic.LastAxisRows

open Idealize.ShloMosaic Idealize.ShloMosaic.ValueIdx

variable {a b c : Nat}

/-- The reduced index (p, q) with coordinate `k` put back on the last axis is (p, q, k). -/
theorem lift_last (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- A float `vector.multi_reduction <add>` over the last axis, at (p, q): the sum of the row's entries. -/
theorem multiReduction_add_last {φ : FTy} (src : FVec Ideal (⟨3, ![a, b, c]⟩ : Shape) φ) (acc : BitVec φ.bits)
    (h : (⟨3, ![a, b, c]⟩ : Shape).Reduces [2] (⟨2, ![a, b]⟩ : Shape)) (hφ : FKind.Formats φ)
    (hacc : acc = FKind.add.neutral φ hφ) (p : Fin a) (q : Fin b) :
    multiReduction .add [2] (⟨2, ![a, b]⟩ : Shape) src acc h hφ hacc (ix2 p q) = ∑ k : Fin c, src (ix3 p q k) := by
  refine (Ideal.multiReduction_add_single src acc h hφ hacc (ix2 p q)).trans ?_
  exact Finset.sum_congr rfl fun k _ => congrArg src (lift_last h p q k)

/-- A float `vector.multi_reduction <maximumf>` over the last axis, at (p, q): the fold of `max` over the row's
    entries, from the accumulator's value. -/
theorem multiReduction_maximumf_last {φ : FTy} (src : FVec Ideal (⟨3, ![a, b, c]⟩ : Shape) φ) (acc : BitVec φ.bits)
    (h : (⟨3, ![a, b, c]⟩ : Shape).Reduces [2] (⟨2, ![a, b]⟩ : Shape)) (hφ : FKind.Formats φ)
    (hacc : acc = FKind.maximumf.neutral φ hφ) (p : Fin a) (q : Fin b) :
    multiReduction .maximumf [2] (⟨2, ![a, b]⟩ : Shape) src acc h hφ hacc (ix2 p q)
      = (Finset.univ : Finset (Fin c)).fold max (FloatOps.ofBits φ acc) (fun k => src (ix3 p q k)) := by
  refine (Ideal.multiReduction_maximumf_single src acc h hφ hacc (ix2 p q)).trans ?_
  have hf : (src ∘ h.lift (ix2 p q)) = fun k : Fin c => src (ix3 p q k) := funext fun k => congrArg src (lift_last h p q k)
  exact congrArg (fun f => Finset.fold max (FloatOps.ofBits φ acc) f (Finset.univ : Finset (Fin c))) hf

/-- A row statistic put back on its row (keepdims): the cast to a unit last axis and the broadcast along it read, at
    (p, q, k), the statistic at (p, q). -/
theorem keepdims_last {α : Type} (R : (⟨2, ![a, b]⟩ : Shape).Idx → α)
    (h1 : (⟨2, ![a, b]⟩ : Shape).ShapeCasts (⟨3, ![a, b, 1]⟩ : Shape))
    (h2 : (⟨3, ![a, b, 1]⟩ : Shape).Broadcasts (⟨3, ![a, b, c]⟩ : Shape)) (p : Fin a) (q : Fin b) (k : Fin c) :
    broadcastTo (⟨3, ![a, b, c]⟩ : Shape) (shapeCast (⟨3, ![a, b, 1]⟩ : Shape) R h1) h2 (ix3 p q k) = R (ix2 p q) := by
  refine (broadcastTo_apply (shapeCast (⟨3, ![a, b, 1]⟩ : Shape) R h1) h2 (ix3 p q k) (ix3 p q (0 : Fin 1)) ?_).trans ?_
  · intro d
    match d with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ => exact (if_pos rfl).symm
  · refine shapeCast_apply R h1 (ix3 p q (0 : Fin 1)) (ix2 p q) ?_
    rw [Shape.rowMajor_val_two, Shape.rowMajor_val_three]
    show p.val * b + q.val = (p.val * b + q.val) * 1 + 0
    omega

end Idealize.ShloMosaic.LastAxisRows

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibMidAxisRows.lean ====
/-
  Row statistics along the MIDDLE axis of a rank-3 vector, and the layout steps beside them, at the ideal values, for
  any extents a, b, c.

  A normalisation over the middle axis of an [a, b, c] vector takes a statistic of each line (p, ·, k) — its maximum,
  its sum — as a `vector.multi_reduction` over axis 1 into [a, c], and puts it back beside every entry of the line by a
  `vector.shape_cast` [a, c] → [a, 1, c] followed by a `vector.broadcast` [a, 1, c] → [a, b, c]. Read at (p, q, k):
  * `lift_mid`: the reduced index (p, k) with coordinate `q` put back on axis 1 is (p, q, k);
  * `multiReduction_add_mid`: the `<add>` reduction at (p, k) is `∑ q, src (p, q, k)`;
  * `multiReduction_maximumf_mid`: the `<maximumf>` reduction at (p, k) is the fold of `max`, from the accumulator's
    value, over `q ↦ src (p, q, k)`;
  * `keepdims_mid`: the cast and the broadcast read, at (p, q, k), the statistic at (p, k) — for `b = 1` too, and
    whatever `a` and `c` are;
  * `squeeze_mid` / `unsqueeze_mid`: a shape cast that drops or adds a unit middle axis keeps (p, k) beside (p, 0, k);
  * `transpose_021`: the last two axes swapped, read at (p, k, q), is the operand at (p, q, k);
  * `concat_axis1` (and `concat_axis1_of_eq`, the joined extent a name of its own): two matrices joined along their
    columns read, at (p, j), the first at (p, j) when `j` is below its width and the second at (p, j − width) otherwise.
  The reduction lemmas take the format and accumulator facts as hypotheses typed the way the operation's own
  arguments are (`acc = FKind.add.neutral φ hφ`), so a proof applies them by `refine (… ).trans ?_` to a printed term.
-/
import Idealize.ShloMosaic.Lib.Pipeline.Value
import Idealize.ShloMosaic.Lib.ValueIdx
import Idealize.ShloMosaic.PureOps.Ideal.Laws

noncomputable section

namespace Idealize.ShloMosaic.MidAxisRows

open Idealize.ShloMosaic Idealize.ShloMosaic.ValueIdx

variable {a b c : Nat}

/-- The reduced index (p, k) with coordinate `q` put back on the middle axis is (p, q, k). -/
theorem lift_mid (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext d; apply Fin.ext
  fin_cases d <;> rfl

/-- A float `vector.multi_reduction <add>` over the middle axis, at (p, k): the sum over q of the entries (p, q, k). -/
theorem multiReduction_add_mid {φ : FTy} (src : FVec Ideal (⟨3, ![a, b, c]⟩ : Shape) φ) (acc : BitVec φ.bits)
    (h : (⟨3, ![a, b, c]⟩ : Shape).Reduces [1] (⟨2, ![a, c]⟩ : Shape)) (hφ : FKind.Formats φ)
    (hacc : acc = FKind.add.neutral φ hφ) (p : Fin a) (k : Fin c) :
    multiReduction .add [1] (⟨2, ![a, c]⟩ : Shape) src acc h hφ hacc (ix2 p k) = ∑ q : Fin b, src (ix3 p q k) := by
  refine (Ideal.multiReduction_add_single src acc h hφ hacc (ix2 p k)).trans ?_
  exact Finset.sum_congr rfl fun q _ => congrArg src (lift_mid h p k q)

/-- A float `vector.multi_reduction <maximumf>` over the middle axis, at (p, k): the fold of `max` over the entries
    (p, q, k), q running, from the accumulator's value. -/
theorem multiReduction_maximumf_mid {φ : FTy} (src : FVec Ideal (⟨3, ![a, b, c]⟩ : Shape) φ) (acc : BitVec φ.bits)
    (h : (⟨3, ![a, b, c]⟩ : Shape).Reduces [1] (⟨2, ![a, c]⟩ : Shape)) (hφ : FKind.Formats φ)
    (hacc : acc = FKind.maximumf.neutral φ hφ) (p : Fin a) (k : Fin c) :
    multiReduction .maximumf [1] (⟨2, ![a, c]⟩ : Shape) src acc h hφ hacc (ix2 p k)
      = (Finset.univ : Finset (Fin b)).fold max (FloatOps.ofBits φ acc) (fun q => src (ix3 p q k)) := by
  refine (Ideal.multiReduction_maximumf_single src acc h hφ hacc (ix2 p k)).trans ?_
  have hf : (src ∘ h.lift (ix2 p k)) = fun q : Fin b => src (ix3 p q k) := funext fun q => congrArg src (lift_mid h p k q)
  exact congrArg (fun f => Finset.fold max (FloatOps.ofBits φ acc) f (Finset.univ : Finset (Fin b))) hf

/-- A line statistic put back on its line (keepdims): the cast to a unit middle axis and the broadcast along it read,
    at (p, q, k), the statistic at (p, k). -/
theorem keepdims_mid {α : Type} (R : (⟨2, ![a, c]⟩ : Shape).Idx → α)
    (h1 : (⟨2, ![a, c]⟩ : Shape).ShapeCasts (⟨3, ![a, 1, c]⟩ : Shape))
    (h2 : (⟨3, ![a, 1, c]⟩ : Shape).Broadcasts (⟨3, ![a, b, c]⟩ : Shape)) (p : Fin a) (q : Fin b) (k : Fin c) :
    broadcastTo (⟨3, ![a, b, c]⟩ : Shape) (shapeCast (⟨3, ![a, 1, c]⟩ : Shape) R h1) h2 (ix3 p q k) = R (ix2 p k) := by
  refine (broadcastTo_apply (shapeCast (⟨3, ![a, 1, c]⟩ : Shape) R h1) h2 (ix3 p q k) (ix3 p (0 : Fin 1) k) ?_).trans ?_
  · intro d
    match d with
    | ⟨0, _⟩ =>
      show p.val = if a = 1 then 0 else p.val
      split
      · have := p.isLt; omega
      · rfl
    | ⟨1, _⟩ => exact (if_pos rfl).symm
    | ⟨2, _⟩ =>
      show k.val = if c = 1 then 0 else k.val
      split
      · have := k.isLt; omega
      · rfl
  · refine shapeCast_apply R h1 (ix3 p (0 : Fin 1) k) (ix2 p k) ?_
    rw [Shape.rowMajor_val_two, Shape.rowMajor_val_three]
    show p.val * c + k.val = (p.val * 1 + 0) * c + k.val
    rw [Nat.mul_one, Nat.add_zero]

/-- A shape cast that drops a unit middle axis reads, at (p, k), the operand at (p, 0, k). -/
theorem squeeze_mid {α : Type} (x : (⟨3, ![a, 1, c]⟩ : Shape).Idx → α)
    (h : (⟨3, ![a, 1, c]⟩ : Shape).ShapeCasts (⟨2, ![a, c]⟩ : Shape)) (p : Fin a) (k : Fin c) :
    shapeCast (⟨2, ![a, c]⟩ : Shape) x h (ix2 p k) = x (ix3 p (0 : Fin 1) k) := by
  refine shapeCast_apply x h (ix2 p k) (ix3 p (0 : Fin 1) k) ?_
  rw [Shape.rowMajor_val_two, Shape.rowMajor_val_three]
  show (p.val * 1 + 0) * c + k.val = p.val * c + k.val
  rw [Nat.mul_one, Nat.add_zero]

/-- A shape cast that adds a unit middle axis reads, at (p, 0, k), the operand at (p, k). -/
theorem unsqueeze_mid {α : Type} (y : (⟨2, ![a, c]⟩ : Shape).Idx → α)
    (h : (⟨2, ![a, c]⟩ : Shape).ShapeCasts (⟨3, ![a, 1, c]⟩ : Shape)) (p : Fin a) (k : Fin c) :
    shapeCast (⟨3, ![a, 1, c]⟩ : Shape) y h (ix3 p (0 : Fin 1) k) = y (ix2 p k) := by
  refine shapeCast_apply y h (ix3 p (0 : Fin 1) k) (ix2 p k) ?_
  rw [Shape.rowMajor_val_two, Shape.rowMajor_val_three]
  show p.val * c + k.val = (p.val * 1 + 0) * c + k.val
  rw [Nat.mul_one, Nat.add_zero]

/-- A stack of matrices, each transposed (the last two axes swapped), reads, at (p, k, q), the operand at (p, q, k). -/
theorem transpose_021 {α : Type} (x : (⟨3, ![a, b, c]⟩ : Shape).Idx → α)
    (h : (⟨3, ![a, b, c]⟩ : Shape).Transposes [0, 2, 1] (⟨3, ![a, c, b]⟩ : Shape)) (p : Fin a) (k : Fin c) (q : Fin b) :
    transpose (⟨3, ![a, c, b]⟩ : Shape) [0, 2, 1] x h (ix3 p k q) = x (ix3 p q k) :=
  transpose_apply _ x h _ _ fun d => match d with | ⟨0, _⟩ => rfl | ⟨1, _⟩ => rfl | ⟨2, _⟩ => rfl

/-- Two matrices with the same rows joined along their columns, the joined width named `n`: at (p, j) the first at
    (p, j) when `j` is below its width `b1`, the second at (p, j − b1) otherwise. -/
theorem concat_axis1_of_eq {α : Type} {b1 b2 n : Nat} (hn : n = b1 + b2) (x : (⟨2, ![a, b1]⟩ : Shape).Idx → α)
    (y : (⟨2, ![a, b2]⟩ : Shape).Idx → α)
    (h : Shape.Concatenates [(⟨2, ![a, b1]⟩ : Shape), (⟨2, ![a, b2]⟩ : Shape)] (⟨2, ![a, n]⟩ : Shape) 1) (p : Fin a)
    (j : Fin n) :
    concatenate (⟨2, ![a, n]⟩ : Shape) 1 [⟨(⟨2, ![a, b1]⟩ : Shape), x⟩, ⟨(⟨2, ![a, b2]⟩ : Shape), y⟩] h (ix2 p j)
      = if hj : j.val < b1 then x (ix2 p ⟨j.val, hj⟩) else y (ix2 p ⟨j.val - b1, by have := j.isLt; omega⟩) := by
  by_cases hj : j.val < b1
  · rw [dif_pos hj]
    refine concatenate_pair_apply_left 1 x y h (ix2 p j) rfl (ix2 p ⟨j.val, hj⟩) ?_
    intro d
    match d with
    | ⟨0, _⟩ => rfl
    | ⟨1, _⟩ => rfl
  · rw [dif_neg hj]
    refine concatenate_pair_apply_right 1 x y h (ix2 p j) rfl rfl (ix2 p ⟨j.val - b1, by have := j.isLt; omega⟩) ?_ ?_
    · intro d hd
      match d, hd with
      | ⟨0, _⟩, _ => rfl
      | ⟨1, _⟩, hd => exact absurd rfl hd
    · show j.val - b1 + b1 = j.val
      omega

/-- Two matrices with the same rows joined along their columns: at (p, j) the first at (p, j) when `j` is below its
    width `b1`, the second at (p, j − b1) otherwise. -/
theorem concat_axis1 {α : Type} {b1 b2 : Nat} (x : (⟨2, ![a, b1]⟩ : Shape).Idx → α) (y : (⟨2, ![a, b2]⟩ : Shape).Idx → α)
    (h : Shape.Concatenates [(⟨2, ![a, b1]⟩ : Shape), (⟨2, ![a, b2]⟩ : Shape)] (⟨2, ![a, b1 + b2]⟩ : Shape) 1) (p : Fin a)
    (j : Fin (b1 + b2)) :
    concatenate (⟨2, ![a, b1 + b2]⟩ : Shape) 1 [⟨(⟨2, ![a, b1]⟩ : Shape), x⟩, ⟨(⟨2, ![a, b2]⟩ : Shape), y⟩] h (ix2 p j)
      = if hj : j.val < b1 then x (ix2 p ⟨j.val, hj⟩) else y (ix2 p ⟨j.val - b1, by omega⟩) :=
  concat_axis1_of_eq rfl x y h p j

end Idealize.ShloMosaic.MidAxisRows

end
-- ==== Proof.KernelRows.lean ====
/-
  What the kernel's body stores, read at an index of the block, at the ideal values.

  The body works on a block of eight batch elements. With `P0` the block of source rows, `P1` the block of target
  rows (both [8, 128, 1024]), `P2` / `P5` the target validity bits as a column [8, 128, 1] / a row [8, 1, 128] of 0/1
  integers and `P3` / `P4` the source validity bits as a row / a column, each of the four stored values at batch
  `b` of the block is the corresponding function of `Cert.TwoWayAttn` of batch `b`'s rows and of the mask
  `kmask`: the product of the two 0/1 integers compared with zero.

  The steps: a column [8, 128, 1] and a row [8, 1, 128] broadcast to [8, 128, 128] read, at (b, r, q), the column at
  (b, r) and the row at (b, q); a select by the mask bit is pointwise; the softmax over the last axis is, row by row,
  `softRow` (the row maximum and the row sum are reductions over the last axis, put back beside every entry of the
  row); a matrix product with one contracted axis is the sum over that axis; a transposition of the last two axes
  reads (b, s, t) at (b, t, s); and a change of float format is the identity.
-/
import proofs.«170620_j29867202576855_2_alg».proof.Proof.Gen.KernelIdeal.Skeleton
import proofs.«170620_j29867202576855_2_alg».proof.Proof.AttnSpec
import proofs.«170620_j29867202576855_2_alg».proof.Proof.LibLastAxisRows
import proofs.«170620_j29867202576855_2_alg».proof.Proof.LibMatmulSum
import proofs.«170620_j29867202576855_2_alg».proof.Proof.LibMidAxisRows

noncomputable section

namespace Cert.KernelIdeal.Rows

open Cert.KernelIdeal Cert.KernelIdeal.Gen Cert.TwoWayAttn Idealize.ShloMosaic Idealize.ShloMosaic.ValueIdx

/-- The mask the kernel computes for batch `b` of a block from a column `C` and a row `R` of 0/1 integers:
    at (r, q) the bit "C(b, r) * R(b, q) is not zero". -/
def kmask (C : Vec Ideal S8x128x1 .i32) (R : Vec Ideal S8x1x128 .i32) (b : Fin 8) : Fin 128 → Fin 128 → BitVec 1 :=
  fun r q => IntOp.cmpi .ne (IntOp.muli (C (ix3 b r (0 : Fin 1))) (R (ix3 b (0 : Fin 1) q))) 0#32

/-! ## The mask operands put on the [8, 128, 128] grid -/

/-- A column [8, 128, 1] broadcast along the last axis reads, at (b, r, q), the column at (b, r). -/
theorem col_on_grid (C : Vec Ideal S8x128x1 .i32) (b : Fin 8) (r q : Fin 128) :
    broadcastTo S8x128x128 (shapeCast S8x128x1 C shapeCasts_S8x128x1_S8x128x1) broadcasts_S8x128x1_S8x128x128 (ix3 b r q)
      = C (ix3 b r (0 : Fin 1)) := by
  refine (broadcastTo_apply _ _ (ix3 b r q) (ix3 b r (0 : Fin 1)) ?_).trans ?_
  · intro a
    match a with
    | ⟨0, _⟩ => show b.val = if (8 : Nat) = 1 then 0 else b.val; rw [if_neg (by decide)]
    | ⟨1, _⟩ => show r.val = if (128 : Nat) = 1 then 0 else r.val; rw [if_neg (by decide)]
    | ⟨2, _⟩ => exact (if_pos rfl).symm
  · exact shapeCast_apply _ _ _ _ rfl

/-- A row [8, 1, 128] broadcast along the middle axis reads, at (b, r, q), the row at (b, q). -/
theorem row_on_grid (R : Vec Ideal S8x1x128 .i32) (b : Fin 8) (r q : Fin 128) :
    broadcastTo S8x128x128 (shapeCast S8x1x128 R shapeCasts_S8x1x128_S8x1x128) broadcasts_S8x1x128_S8x128x128 (ix3 b r q)
      = R (ix3 b (0 : Fin 1) q) := by
  refine (broadcastTo_apply _ _ (ix3 b r q) (ix3 b (0 : Fin 1) q) ?_).trans ?_
  · intro a
    match a with
    | ⟨0, _⟩ => show b.val = if (8 : Nat) = 1 then 0 else b.val; rw [if_neg (by decide)]
    | ⟨1, _⟩ => exact (if_pos rfl).symm
    | ⟨2, _⟩ => show q.val = if (128 : Nat) = 1 then 0 else q.val; rw [if_neg (by decide)]
  · exact shapeCast_apply _ _ _ _ rfl

/-- An array with the entries where the product of the column and the row is zero replaced by the fill value. -/
def masked (C : Vec Ideal S8x128x1 .i32) (R : Vec Ideal S8x1x128 .i32) (X : FVec Ideal S8x128x128 .f32) :
    FVec Ideal S8x128x128 .f32 :=
  select (cmpi .ne (muli (broadcastTo S8x128x128 (shapeCast S8x128x1 C shapeCasts_S8x128x1_S8x128x1) broadcasts_S8x128x1_S8x128x128)
      (broadcastTo S8x128x128 (shapeCast S8x1x128 R shapeCasts_S8x1x128_S8x1x128) broadcasts_S8x1x128_S8x128x128))
    (broadcast S8x128x128 0#32)) X (broadcast S8x128x128 (Scalar.ofBits (F := Ideal) .f32 0xC479C000#32))

/-- The masked array at (b, r, q): the entry where the mask bit is set, the fill value elsewhere. -/
theorem masked_apply (C : Vec Ideal S8x128x1 .i32) (R : Vec Ideal S8x1x128 .i32) (X : FVec Ideal S8x128x128 .f32)
    (b : Fin 8) (r q : Fin 128) :
    masked C R X (ix3 b r q) = Scalar.select (kmask C R b r q) (X (ix3 b r q)) fill := by
  show Scalar.select (IntOp.cmpi .ne (IntOp.muli
        (broadcastTo S8x128x128 (shapeCast S8x128x1 C shapeCasts_S8x128x1_S8x128x1) broadcasts_S8x128x1_S8x128x128 (ix3 b r q))
        (broadcastTo S8x128x128 (shapeCast S8x1x128 R shapeCasts_S8x1x128_S8x1x128) broadcasts_S8x1x128_S8x128x128 (ix3 b r q))) 0#32)
      (X (ix3 b r q)) (Scalar.ofBits (F := Ideal) .f32 0xC479C000#32) = _
  rw [col_on_grid, row_on_grid]
  rfl

/-! ## The softmax over the last axis, row by row -/

/-- Every row's maximum [8, 128]: the reduction over the last axis from -∞, compared with -∞ once more. -/
def rowMaxVec (X : FVec Ideal S8x128x128 .f32) : FVec Ideal S8x128 .f32 :=
  maximumf (broadcast S8x128 (Scalar.ofBits (F := Ideal) .f32 0xFF800000#32))
    (multiReduction .maximumf [2] S8x128 X 0xFF800000#32 reduces_S8x128x128_S8x128 (.inl rfl) rfl)

/-- The exponentials of the entries less their row's maximum. -/
def shifted (X : FVec Ideal S8x128x128 .f32) : FVec Ideal S8x128x128 .f32 :=
  exp (subf X (broadcastTo S8x128x128 (shapeCast S8x128x1 (rowMaxVec X) shapeCasts_S8x128_S8x128x1) broadcasts_S8x128x1_S8x128x128))

/-- The softmax over the last axis as the body spells it. -/
def smax (X : FVec Ideal S8x128x128 .f32) : FVec Ideal S8x128x128 .f32 :=
  divf (shifted X) (broadcastTo S8x128x128 (shapeCast S8x128x1
    (multiReduction .add [2] S8x128 (shifted X) 0x00000000#32 reduces_S8x128x128_S8x128 (.inl rfl) rfl)
    shapeCasts_S8x128_S8x128x1) broadcasts_S8x128x1_S8x128x128)

theorem rowMaxVec_apply (X : FVec Ideal S8x128x128 .f32) (b : Fin 8) (r : Fin 128) :
    rowMaxVec X (ix2 b r) = rowMax (fun q => X (ix3 b r q)) := by
  show max (Ideal.ofBits .f32 0xFF800000#32)
      (multiReduction .maximumf [2] S8x128 X 0xFF800000#32 reduces_S8x128x128_S8x128 (.inl rfl) rfl (ix2 b r)) = _
  exact congrArg (max negInf) (LastAxisRows.multiReduction_maximumf_last X _ _ _ _ b r)

theorem shifted_apply (X : FVec Ideal S8x128x128 .f32) (b : Fin 8) (r q : Fin 128) :
    shifted X (ix3 b r q) = Ideal.exp (X (ix3 b r q) - rowMax (fun q' => X (ix3 b r q'))) := by
  show Ideal.exp (X (ix3 b r q) - broadcastTo S8x128x128 (shapeCast S8x128x1 (rowMaxVec X) shapeCasts_S8x128_S8x128x1)
      broadcasts_S8x128x1_S8x128x128 (ix3 b r q)) = _
  refine congrArg (fun z => Ideal.exp (X (ix3 b r q) - z)) ?_
  exact (LastAxisRows.keepdims_last (rowMaxVec X) _ _ b r q).trans (rowMaxVec_apply X b r)

/-- The body's softmax at (b, r, q) is the softmax of row (b, r) at q. -/
theorem smax_apply (X : FVec Ideal S8x128x128 .f32) (b : Fin 8) (r q : Fin 128) :
    smax X (ix3 b r q) = softRow (fun q' => X (ix3 b r q')) q := by
  show Ideal.div (shifted X (ix3 b r q)) (broadcastTo S8x128x128 (shapeCast S8x128x1
      (multiReduction .add [2] S8x128 (shifted X) 0x00000000#32 reduces_S8x128x128_S8x128 (.inl rfl) rfl)
      shapeCasts_S8x128_S8x128x1) broadcasts_S8x128x1_S8x128x128 (ix3 b r q))
    = Ideal.div (Ideal.exp (X (ix3 b r q) - rowMax (fun q' => X (ix3 b r q'))))
        (∑ k : Fin 128, Ideal.exp (X (ix3 b r k) - rowMax (fun q' => X (ix3 b r q'))))
  rw [shifted_apply]
  refine congrArg (Ideal.div _) ?_
  refine (LastAxisRows.keepdims_last _ _ _ b r q).trans ?_
  refine (LastAxisRows.multiReduction_add_last (shifted X) _ _ _ _ b r).trans ?_
  exact Finset.sum_congr rfl fun k _ => shifted_apply X b r k

/-! ## The two contractions -/

/-- Scores: targets against sources, contracting the feature axis; at (b, t, s) the inner product of target row
    (b, t) and source row (b, s). -/
theorem scores_apply (Tt Ss : FVec Ideal S8x128x1024 .bf16) (b : Fin 8) (t s : Fin 128) :
    matmul dot_S8x128x1024_S8x128x1024_S8x128x128_2_2_1_1_0_0 none Tt Ss (constant S8x128x128 .f32 0x00000000#32) (ix3 b t s)
      = ∑ k : Fin 1024, Tt (ix3 b t k) * Ss (ix3 b s k) := by
  refine MatmulSum.matmul_zero_apply_single dot_S8x128x1024_S8x128x1024_S8x128x128_2_2_1_1_0_0 none 1024 rfl rfl Tt Ss (ix3 b t s)
    (fun k => ix3 b t k) (fun k => ix3 b s k) ?_ ?_
  · intro k
    have hk := contrEquiv1_symm_val dot_S8x128x1024_S8x128x1024_S8x128x128_2_2_1_1_0_0 1024 rfl rfl k
    funext a; apply Fin.ext
    match a with
    | ⟨0, _⟩ =>
      show (dot_S8x128x1024_S8x128x1024_S8x128x128_2_2_1_1_0_0.lhsIdx (ix3 b t s) _ 0).val = b.val
      unfold DotDims.lhsIdx
      rw [dif_pos (show (0 : Fin S8x128x1024.rank) ∈ dot_S8x128x1024_S8x128x1024_S8x128x128_2_2_1_1_0_0.lhsBatch by decide)]
      rfl
    | ⟨1, _⟩ =>
      show (dot_S8x128x1024_S8x128x1024_S8x128x128_2_2_1_1_0_0.lhsIdx (ix3 b t s) _ 1).val = t.val
      unfold DotDims.lhsIdx
      rw [dif_neg (show ¬(1 : Fin S8x128x1024.rank) ∈ dot_S8x128x1024_S8x128x1024_S8x128x128_2_2_1_1_0_0.lhsBatch by decide),
        dif_pos (show (1 : Fin S8x128x1024.rank) ∈ dot_S8x128x1024_S8x128x1024_S8x128x128_2_2_1_1_0_0.lhsNonContracting by decide)]
      rfl
    | ⟨2, _⟩ => exact (dot_S8x128x1024_S8x128x1024_S8x128x128_2_2_1_1_0_0.lhsIdx_val_of_single rfl (ix3 b t s) _).trans hk
  · intro k
    have hk := contrEquiv1_symm_val dot_S8x128x1024_S8x128x1024_S8x128x128_2_2_1_1_0_0 1024 rfl rfl k
    funext a; apply Fin.ext
    match a with
    | ⟨0, _⟩ =>
      show (dot_S8x128x1024_S8x128x1024_S8x128x128_2_2_1_1_0_0.rhsIdx (ix3 b t s) _ 0).val = b.val
      unfold DotDims.rhsIdx
      rw [dif_pos (show (0 : Fin S8x128x1024.rank) ∈ dot_S8x128x1024_S8x128x1024_S8x128x128_2_2_1_1_0_0.rhsBatch by decide)]
      rfl
    | ⟨1, _⟩ =>
      show (dot_S8x128x1024_S8x128x1024_S8x128x128_2_2_1_1_0_0.rhsIdx (ix3 b t s) _ 1).val = s.val
      unfold DotDims.rhsIdx
      rw [dif_neg (show ¬(1 : Fin S8x128x1024.rank) ∈ dot_S8x128x1024_S8x128x1024_S8x128x128_2_2_1_1_0_0.rhsBatch by decide),
        dif_pos (show (1 : Fin S8x128x1024.rank) ∈ dot_S8x128x1024_S8x128x1024_S8x128x128_2_2_1_1_0_0.rhsNonContracting by decide)]
      rfl
    | ⟨2, _⟩ => exact (dot_S8x128x1024_S8x128x1024_S8x128x128_2_2_1_1_0_0.rhsIdx_val_of_single rfl (ix3 b t s) _).trans hk

/-- Weights [8, 128, 128] times rows [8, 128, 1024], contracting the weights' last axis with the rows' position
    axis; at (b, r, k) the sum over q of weight (b, r, q) times row (b, q) at feature k. -/
theorem weighted_apply (W : FVec Ideal S8x128x128 .bf16) (Rw : FVec Ideal S8x128x1024 .bf16) (b : Fin 8) (r : Fin 128)
    (k : Fin 1024) :
    matmul dot_S8x128x128_S8x128x1024_S8x128x1024_2_1_1_2_0_0 none W Rw (constant S8x128x1024 .f32 0x00000000#32) (ix3 b r k)
      = ∑ q : Fin 128, W (ix3 b r q) * Rw (ix3 b q k) := by
  refine MatmulSum.matmul_zero_apply_single dot_S8x128x128_S8x128x1024_S8x128x1024_2_1_1_2_0_0 none 128 rfl rfl W Rw (ix3 b r k)
    (fun q => ix3 b r q) (fun q => ix3 b q k) ?_ ?_
  · intro q
    have hq := contrEquiv1_symm_val dot_S8x128x128_S8x128x1024_S8x128x1024_2_1_1_2_0_0 128 rfl rfl q
    funext a; apply Fin.ext
    match a with
    | ⟨0, _⟩ =>
      show (dot_S8x128x128_S8x128x1024_S8x128x1024_2_1_1_2_0_0.lhsIdx (ix3 b r k) _ 0).val = b.val
      unfold DotDims.lhsIdx
      rw [dif_pos (show (0 : Fin S8x128x128.rank) ∈ dot_S8x128x128_S8x128x1024_S8x128x1024_2_1_1_2_0_0.lhsBatch by decide)]
      rfl
    | ⟨1, _⟩ =>
      show (dot_S8x128x128_S8x128x1024_S8x128x1024_2_1_1_2_0_0.lhsIdx (ix3 b r k) _ 1).val = r.val
      unfold DotDims.lhsIdx
      rw [dif_neg (show ¬(1 : Fin S8x128x128.rank) ∈ dot_S8x128x128_S8x128x1024_S8x128x1024_2_1_1_2_0_0.lhsBatch by decide),
        dif_pos (show (1 : Fin S8x128x128.rank) ∈ dot_S8x128x128_S8x128x1024_S8x128x1024_2_1_1_2_0_0.lhsNonContracting by decide)]
      rfl
    | ⟨2, _⟩ => exact (dot_S8x128x128_S8x128x1024_S8x128x1024_2_1_1_2_0_0.lhsIdx_val_of_single rfl (ix3 b r k) _).trans hq
  · intro q
    have hq := contrEquiv1_symm_val dot_S8x128x128_S8x128x1024_S8x128x1024_2_1_1_2_0_0 128 rfl rfl q
    funext a; apply Fin.ext
    match a with
    | ⟨0, _⟩ =>
      show (dot_S8x128x128_S8x128x1024_S8x128x1024_2_1_1_2_0_0.rhsIdx (ix3 b r k) _ 0).val = b.val
      unfold DotDims.rhsIdx
      rw [dif_pos (show (0 : Fin S8x128x1024.rank) ∈ dot_S8x128x128_S8x128x1024_S8x128x1024_2_1_1_2_0_0.rhsBatch by decide)]
      rfl
    | ⟨1, _⟩ => exact (dot_S8x128x128_S8x128x1024_S8x128x1024_2_1_1_2_0_0.rhsIdx_val_of_single rfl (ix3 b r k) _).trans hq
    | ⟨2, _⟩ =>
      show (dot_S8x128x128_S8x128x1024_S8x128x1024_2_1_1_2_0_0.rhsIdx (ix3 b r k) _ 2).val = k.val
      unfold DotDims.rhsIdx
      rw [dif_neg (show ¬(2 : Fin S8x128x1024.rank) ∈ dot_S8x128x128_S8x128x1024_S8x128x1024_2_1_1_2_0_0.rhsBatch by decide),
        dif_pos (show (2 : Fin S8x128x1024.rank) ∈ dot_S8x128x128_S8x128x1024_S8x128x1024_2_1_1_2_0_0.rhsNonContracting by decide)]
      rfl

/-! ## The four stored values -/

/-- The loads enter the body through a cast to their own shape: the identity. -/
theorem own_cast (P : Vec Ideal S8x128x1024 .bf16) (i : S8x128x1024.Idx) :
    shapeCast S8x128x1024 P shapeCasts_S8x128x1024_S8x128x1024 i = P i :=
  shapeCast_apply _ _ _ _ rfl

/-- The masked scores the body computes, at (b, t, s). -/
theorem score_block (P0 P1 : Vec Ideal S8x128x1024 .bf16) (P2 : Vec Ideal S8x128x1 .i32) (P3 : Vec Ideal S8x1x128 .i32)
    (b : Fin 8) (t s : Fin 128) :
    k0_pay5 (F := Ideal) P0 P1 P2 P3 (ix3 b t s) = score (rowsOf P1 b) (rowsOf P0 b) (kmask P2 P3 b) t s := by
  show masked P2 P3 (matmul dot_S8x128x1024_S8x128x1024_S8x128x128_2_2_1_1_0_0 none (k0_pay4 (F := Ideal) P1) (k0_pay3 (F := Ideal) P0)
      (constant S8x128x128 .f32 0x00000000#32)) (ix3 b t s) = _
  rw [masked_apply, scores_apply]
  refine congrArg (fun z => Scalar.select (kmask P2 P3 b t s) z fill) ?_
  exact Finset.sum_congr rfl fun k _ => congrArg₂ (· * ·) (own_cast P1 (ix3 b t k)) (own_cast P0 (ix3 b s k))

/-- The target-to-source weights the body stores, at (b, t, s). -/
theorem ta_soft_block (P0 P1 : Vec Ideal S8x128x1024 .bf16) (P2 : Vec Ideal S8x128x1 .i32) (P3 : Vec Ideal S8x1x128 .i32)
    (b : Fin 8) (t s : Fin 128) :
    k0_pay6 (F := Ideal) P0 P1 P2 P3 (ix3 b t s) = taSoft (rowsOf P1 b) (rowsOf P0 b) (kmask P2 P3 b) t s := by
  show smax (k0_pay5 (F := Ideal) P0 P1 P2 P3) (ix3 b t s) = _
  rw [smax_apply]
  show softRow _ s = softRow _ s
  exact congrArg (fun f => softRow f s) (funext fun s' => score_block P0 P1 P2 P3 b t s')

/-- The source attention the body stores, at (b, t, k). -/
theorem src_att_block (P0 P1 : Vec Ideal S8x128x1024 .bf16) (P2 : Vec Ideal S8x128x1 .i32) (P3 : Vec Ideal S8x1x128 .i32)
    (b : Fin 8) (t : Fin 128) (k : Fin 1024) :
    k0_pay7 (F := Ideal) P0 P1 P2 P3 (ix3 b t k) = srcAtt (rowsOf P1 b) (rowsOf P0 b) (kmask P2 P3 b) t k := by
  show matmul dot_S8x128x128_S8x128x1024_S8x128x1024_2_1_1_2_0_0 none (truncf .bf16 (k0_pay6 (F := Ideal) P0 P1 P2 P3) bitsLt_bf16_f32) (k0_pay3 (F := Ideal) P0)
      (constant S8x128x1024 .f32 0x00000000#32) (ix3 b t k) = _
  rw [weighted_apply]
  refine Finset.sum_congr rfl fun s _ => ?_
  show k0_pay6 (F := Ideal) P0 P1 P2 P3 (ix3 b t s) * shapeCast S8x128x1024 P0 shapeCasts_S8x128x1024_S8x128x1024 (ix3 b s k) = _
  rw [ta_soft_block, own_cast]
  rfl

/-- The transposed scores masked once more, at (b, s, t). -/
theorem scoreT_block (P0 P1 : Vec Ideal S8x128x1024 .bf16) (P2 : Vec Ideal S8x128x1 .i32) (P3 : Vec Ideal S8x1x128 .i32)
    (P4 : Vec Ideal S8x128x1 .i32) (P5 : Vec Ideal S8x1x128 .i32) (b : Fin 8) (s t : Fin 128) :
    masked P4 P5 (k0_pay8 (F := Ideal) P0 P1 P2 P3) (ix3 b s t)
      = scoreT (rowsOf P1 b) (rowsOf P0 b) (kmask P2 P3 b) (kmask P4 P5 b) s t := by
  rw [masked_apply]
  show Scalar.select _ (transpose S8x128x128 [0, 2, 1] (k0_pay5 (F := Ideal) P0 P1 P2 P3) transposes_S8x128x128_p0_2_1_S8x128x128
      (ix3 b s t)) fill = _
  rw [MidAxisRows.transpose_021, score_block]
  rfl

/-- The source-to-target weights the body stores, at (b, s, t). -/
theorem at_soft_block (P0 P1 : Vec Ideal S8x128x1024 .bf16) (P2 : Vec Ideal S8x128x1 .i32) (P3 : Vec Ideal S8x1x128 .i32)
    (P4 : Vec Ideal S8x128x1 .i32) (P5 : Vec Ideal S8x1x128 .i32) (b : Fin 8) (s t : Fin 128) :
    k0_pay1 (F := Ideal) (k0_pay8 P0 P1 P2 P3) (k0_pay9 (F := Ideal) P4) (k0_pay10 (F := Ideal) P5) (ix3 b s t)
      = atSoft (rowsOf P1 b) (rowsOf P0 b) (kmask P2 P3 b) (kmask P4 P5 b) s t := by
  show smax (masked P4 P5 (k0_pay8 (F := Ideal) P0 P1 P2 P3)) (ix3 b s t) = _
  rw [smax_apply]
  show softRow _ t = softRow _ t
  exact congrArg (fun f => softRow f t) (funext fun t' => scoreT_block P0 P1 P2 P3 P4 P5 b s t')

/-- The target attention the body stores, at (b, s, k). -/
theorem tgt_att_block (P0 P1 : Vec Ideal S8x128x1024 .bf16) (P2 : Vec Ideal S8x128x1 .i32) (P3 : Vec Ideal S8x1x128 .i32)
    (P4 : Vec Ideal S8x128x1 .i32) (P5 : Vec Ideal S8x1x128 .i32) (b : Fin 8) (s : Fin 128) (k : Fin 1024) :
    k0_pay2 (F := Ideal) (k0_pay4 P1) (k0_pay8 P0 P1 P2 P3) (k0_pay9 (F := Ideal) P4) (k0_pay10 (F := Ideal) P5) (ix3 b s k)
      = tgtAtt (rowsOf P1 b) (rowsOf P0 b) (kmask P2 P3 b) (kmask P4 P5 b) s k := by
  show matmul dot_S8x128x128_S8x128x1024_S8x128x1024_2_1_1_2_0_0 none (truncf .bf16 (k0_pay1 (F := Ideal) (k0_pay8 P0 P1 P2 P3) (k0_pay9 (F := Ideal) P4) (k0_pay10 (F := Ideal) P5))
      bitsLt_bf16_f32) (k0_pay4 (F := Ideal) P1) (constant S8x128x1024 .f32 0x00000000#32) (ix3 b s k) = _
  rw [weighted_apply]
  refine Finset.sum_congr rfl fun t _ => ?_
  show k0_pay1 (F := Ideal) (k0_pay8 P0 P1 P2 P3) (k0_pay9 (F := Ideal) P4) (k0_pay10 (F := Ideal) P5) (ix3 b s t)
      * shapeCast S8x128x1024 P1 shapeCasts_S8x128x1024_S8x128x1024 (ix3 b t k) = _
  rw [at_soft_block, own_cast]
  rfl

end Cert.KernelIdeal.Rows

end
-- ==== Proof.HostSide.lean ====
/-
  The arrays the region finds, as functions of @main's arguments.

  Before the region @main gathers each sentence's embedding rows and smooths them along the sentence (a window of three
  positions, the two end positions averaging two): `pooled ids table`, one function of the token ids and the
  embedding table, never opened here. The region's two row windows hold that array (the change of float format is the
  identity at the ideal values), and its four mask windows hold the validity bits widened to 32-bit integers, laid out
  as a row [256, 1, 128] or as a column [256, 128, 1].
-/
import proofs.«170620_j29867202576855_2_alg».proof.Proof.Gen.KernelIdeal.Frame
import Idealize.ShloMosaic.Lib.ValueIdx
import Idealize.ShloMosaic.Lib.Pipeline.Value

noncomputable section

namespace Cert.KernelIdeal.HostSide

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The gather-and-smooth chain, stage by stage

The operations below are the ones @main applies, in its order, over its own records of literals (the gather's and the
scatter's dimension numbers, the pad's and the slices' extents, the broadcasts' axes). The source sentence and the target
sentence go through the same operations, so one definition serves both. -/

/-- Token ids with a negative id counted from the table's end: `id + 32000` where `id < 0`, `id` elsewhere. -/
def wrapped (ids : (⟨S256x128, .i32⟩ : BufTy).Contents (Elt Ideal)) : (⟨S256x128, .i32⟩ : BufTy).Contents (Elt Ideal) :=
  select
    (cmpi .slt ids (broadcastInDim S256x128 ![] bcast_S_S256x128 (constantI S_ 32 0#32)) :
      (⟨S256x128, .i1⟩ : BufTy).Contents (Elt Ideal))
    (addi ids (broadcastInDim S256x128 ![] bcast_S_S256x128 (constantI S_ 32 32000#32)) :
      (⟨S256x128, .i32⟩ : BufTy).Contents (Elt Ideal))
    ids

/-- The wrapped ids as an index column [256, 128, 1]: one table row per sentence position. -/
def idColumn (ids : (⟨S256x128, .i32⟩ : BufTy).Contents (Elt Ideal)) : (⟨S256x128x1, .i32⟩ : BufTy).Contents (Elt Ideal) :=
  broadcastInDim S256x128x1 ![0, 1] bcast_S256x128_S256x128x1_0_1 (wrapped ids)

/-- The embedding rows of a batch of sentences: position (b, t) holds the table's row `idColumn ids (b, t, 0)`. -/
def gathered (ids : (⟨S256x128, .i32⟩ : BufTy).Contents (Elt Ideal)) (table : (⟨S32000x1024, .f32⟩ : BufTy).Contents (Elt Ideal)) :
    (⟨S256x128x1024, .f32⟩ : BufTy).Contents (Elt Ideal) :=
  Host.gather gather_S32000x1024_S256x128x1_S256x128x1024_2_0_n_n_0_2_11024 table (idColumn ids)

/-- The padding value: the integer 0 converted to f32. -/
def padValue : (⟨S_, .f32⟩ : BufTy).Contents (Elt Ideal) :=
  sitofp (F := Ideal) .f32 (constantI S_ 32 0#32)

/-- The gathered rows with one row of the padding value before and one after each sentence: [256, 130, 1024]. -/
def padded (ids : (⟨S256x128, .i32⟩ : BufTy).Contents (Elt Ideal)) (table : (⟨S32000x1024, .f32⟩ : BufTy).Contents (Elt Ideal)) :
    (⟨S256x130x1024, .f32⟩ : BufTy).Contents (Elt Ideal) :=
  pad S256x130x1024 ![0, 1, 0] ![0, 1, 0] ![0, 0, 0] (gathered ids table) padValue
    pads_S256x128x1024_S256x130x1024_000_110_000 h_S_

/-- The padded rows shifted by 0 positions along the sentence: the left neighbour of each position. -/
def shift0 (ids : (⟨S256x128, .i32⟩ : BufTy).Contents (Elt Ideal)) (table : (⟨S32000x1024, .f32⟩ : BufTy).Contents (Elt Ideal)) :
    (⟨S256x128x1024, .f32⟩ : BufTy).Contents (Elt Ideal) :=
  extractStridedSlice S256x128x1024 ![0, 0, 0] (padded ids table) slices_S256x130x1024_S256x128x1024_0_0_0

/-- The padded rows shifted by 1 position: each position itself. -/
def shift1 (ids : (⟨S256x128, .i32⟩ : BufTy).Contents (Elt Ideal)) (table : (⟨S32000x1024, .f32⟩ : BufTy).Contents (Elt Ideal)) :
    (⟨S256x128x1024, .f32⟩ : BufTy).Contents (Elt Ideal) :=
  extractStridedSlice S256x128x1024 ![0, 1, 0] (padded ids table) slices_S256x130x1024_S256x128x1024_0_1_0

/-- The padded rows shifted by 2 positions: the right neighbour of each position. -/
def shift2 (ids : (⟨S256x128, .i32⟩ : BufTy).Contents (Elt Ideal)) (table : (⟨S32000x1024, .f32⟩ : BufTy).Contents (Elt Ideal)) :
    (⟨S256x128x1024, .f32⟩ : BufTy).Contents (Elt Ideal) :=
  extractStridedSlice S256x128x1024 ![0, 2, 0] (padded ids table) slices_S256x130x1024_S256x128x1024_0_2_0

/-- The sum over each window of three positions, (left + self) + right. -/
def windowSum (ids : (⟨S256x128, .i32⟩ : BufTy).Contents (Elt Ideal)) (table : (⟨S32000x1024, .f32⟩ : BufTy).Contents (Elt Ideal)) :
    (⟨S256x128x1024, .f32⟩ : BufTy).Contents (Elt Ideal) :=
  addf (F := Ideal) (φ := .f32) (addf (F := Ideal) (φ := .f32) (shift0 ids table) (shift1 ids table)) (shift2 ids table)

/-- The vector 3 of length 128. -/
def threes : (⟨S128, .f32⟩ : BufTy).Contents (Elt Ideal) :=
  broadcastInDim S128 ![] bcast_S_S128 (constant (F := Ideal) S_ .f32 0x40400000#32)

/-- The one-entry index vector holding `k`. -/
def position (k : BitVec 32) : (⟨S1, .i32⟩ : BufTy).Contents (Elt Ideal) :=
  broadcastInDim S1 ![] bcast_S_S1 (constantI S_ 32 k)

/-- The scalar 2. -/
def two : (⟨S_, .f32⟩ : BufTy).Contents (Elt Ideal) :=
  constant (F := Ideal) S_ .f32 0x40000000#32

/-- How many positions each window holds: 3, with 2 written over it at position 0 and then at position 127. -/
def windowSizes : (⟨S128, .f32⟩ : BufTy).Contents (Elt Ideal) :=
  Host.scatter scatter_S128_S1_S__n_0_0_0 (fun _ b => b)
    (Host.scatter scatter_S128_S1_S__n_0_0_0 (fun _ b => b) threes (position 0#32) two : (⟨S128, .f32⟩ : BufTy).Contents (Elt Ideal))
    (position 127#32) two

/-- The window sizes along the sentence axis of [256, 128, 1024]. -/
def counts : (⟨S256x128x1024, .f32⟩ : BufTy).Contents (Elt Ideal) :=
  broadcastInDim S256x128x1024 ![0, 1, 2] bcast_S1x128x1_S256x128x1024_0_1_2
    (broadcastInDim S1x128x1 ![1] bcast_S128_S1x128x1_1 windowSizes : (⟨S1x128x1, .f32⟩ : BufTy).Contents (Elt Ideal))

/-- The gathered and smoothed embedding rows [256, 128, 1024], as ONE function of the token ids and the table. -/
def pooled (ids : (⟨S256x128, .i32⟩ : BufTy).Contents (Elt Ideal)) (table : (⟨S32000x1024, .f32⟩ : BufTy).Contents (Elt Ideal)) :
    (⟨S256x128x1024, .f32⟩ : BufTy).Contents (Elt Ideal) :=
  Host.divf (F := Ideal) (φ := .f32) (windowSum ids table) counts

/-! ## The buffers the region finds -/

/-- Unfolds the fold of the host operations before the region at one buffer, leaving that buffer's contents as the
    operations' composed term over the launch memory. -/
local macro "host_contents" : tactic =>
  `(tactic| (dsimp only [Gen.V]
             simp only [Gen.hostOps0, Gen.hostOps0_1, Gen.hostOps0_2, Gen.hostOps0_3, Gen.hostOps0_4, List.flatten_cons,
               List.flatten_nil, List.append_nil, List.cons_append, List.nil_append]
             after_results_simp))

/-- The source rows @main returns. -/
theorem V_v20 (c : Dev nD) :
    V m c main_v20 = pooled (m ((c : Thread nD τ).loc main_arg0)) (m ((c : Thread nD τ).loc main_arg4)) := by
  host_contents
  rfl

/-- The target rows @main returns. -/
theorem V_v41 (c : Dev nD) :
    V m c main_v41 = pooled (m ((c : Thread nD τ).loc main_arg1)) (m ((c : Thread nD τ).loc main_arg5)) := by
  host_contents
  rfl

/-- Window 0's array: the source rows. The change of float format is the identity at the ideal values. -/
theorem V_v42 (c : Dev nD) (i : S256x128x1024.Idx) :
    V m c main_v42 i = pooled (m ((c : Thread nD τ).loc main_arg0)) (m ((c : Thread nD τ).loc main_arg4)) i := by
  have e : (V m c main_v42 : S256x128x1024.Idx → Ideal .bf16)
      = truncf (F := Ideal) .bf16 (pooled (m ((c : Thread nD τ).loc main_arg0)) (m ((c : Thread nD τ).loc main_arg4)))
          bitsLt_bf16_f32 := by
    host_contents
    rfl
  exact (congrFun e i).trans (truncf_apply _ _ i)

/-- Window 1's array: the target rows. -/
theorem V_v43 (c : Dev nD) (i : S256x128x1024.Idx) :
    V m c main_v43 i = pooled (m ((c : Thread nD τ).loc main_arg1)) (m ((c : Thread nD τ).loc main_arg5)) i := by
  have e : (V m c main_v43 : S256x128x1024.Idx → Ideal .bf16)
      = truncf (F := Ideal) .bf16 (pooled (m ((c : Thread nD τ).loc main_arg1)) (m ((c : Thread nD τ).loc main_arg5)))
          bitsLt_bf16_f32 := by
    host_contents
    rfl
  exact (congrFun e i).trans (truncf_apply _ _ i)

/-- A [256, 128] array laid out as a row [256, 1, 128] reads, at (b, 0, s), its entry (b, s): result axes 0 and 2 are
    the operand's axes 0 and 1, neither of size one. -/
theorem row_apply {α : Type} (x : S256x128.Idx → α) (b : Fin 256) (s : Fin 128) :
    broadcastInDim S256x1x128 ![0, 2] bcast_S256x128_S256x1x128_0_2 x (ix3 b (0 : Fin 1) s) = x (ix2 b s) :=
  broadcastInDim_apply _ bcast_S256x128_S256x1x128_0_2 x (ix3 b (0 : Fin 1) s) (ix2 b s) (fun a => match a with
    | ⟨0, _⟩ => by show b.val = if (256 : Nat) = 1 then 0 else b.val; rw [if_neg (by decide)]
    | ⟨1, _⟩ => by show s.val = if (128 : Nat) = 1 then 0 else s.val; rw [if_neg (by decide)])

/-- A [256, 128] array laid out as a column [256, 128, 1] reads, at (b, s, 0), its entry (b, s): result axes 0 and 1
    are the operand's axes 0 and 1. -/
theorem column_apply {α : Type} (x : S256x128.Idx → α) (b : Fin 256) (s : Fin 128) :
    broadcastInDim S256x128x1 ![0, 1] bcast_S256x128_S256x128x1_0_1 x (ix3 b s (0 : Fin 1)) = x (ix2 b s) :=
  broadcastInDim_apply _ bcast_S256x128_S256x128x1_0_1 x (ix3 b s (0 : Fin 1)) (ix2 b s) (fun a => match a with
    | ⟨0, _⟩ => by show b.val = if (256 : Nat) = 1 then 0 else b.val; rw [if_neg (by decide)]
    | ⟨1, _⟩ => by show s.val = if (128 : Nat) = 1 then 0 else s.val; rw [if_neg (by decide)])

/-- Window 2's array: the source validity bits as a row. -/
theorem V_v46 (c : Dev nD) (b : Fin 256) (s : Fin 128) :
    V m c main_v46 (ix3 b (0 : Fin 1) s) = (m ((c : Thread nD τ).loc main_arg2) (ix2 b s)).setWidth 32 := by
  have e : (V m c main_v46 : S256x1x128.Idx → BitVec 32)
      = broadcastInDim S256x1x128 ![0, 2] bcast_S256x128_S256x1x128_0_2
          (extui 32 (m ((c : Thread nD τ).loc main_arg2)) natLt_1_32) := by
    host_contents
  exact (congrFun e _).trans ((row_apply _ b s).trans (extui_apply _ _ _))

/-- Window 3's array: the source validity bits as a column. -/
theorem V_v47 (c : Dev nD) (b : Fin 256) (s : Fin 128) :
    V m c main_v47 (ix3 b s (0 : Fin 1)) = (m ((c : Thread nD τ).loc main_arg2) (ix2 b s)).setWidth 32 := by
  have e : (V m c main_v47 : S256x128x1.Idx → BitVec 32)
      = broadcastInDim S256x128x1 ![0, 1] bcast_S256x128_S256x128x1_0_1
          (extui 32 (m ((c : Thread nD τ).loc main_arg2)) natLt_1_32) := by
    host_contents
  exact (congrFun e _).trans ((column_apply _ b s).trans (extui_apply _ _ _))

/-- Window 4's array: the target validity bits as a row. -/
theorem V_v48 (c : Dev nD) (b : Fin 256) (t : Fin 128) :
    V m c main_v48 (ix3 b (0 : Fin 1) t) = (m ((c : Thread nD τ).loc main_arg3) (ix2 b t)).setWidth 32 := by
  have e : (V m c main_v48 : S256x1x128.Idx → BitVec 32)
      = broadcastInDim S256x1x128 ![0, 2] bcast_S256x128_S256x1x128_0_2
          (extui 32 (m ((c : Thread nD τ).loc main_arg3)) natLt_1_32) := by
    host_contents
  exact (congrFun e _).trans ((row_apply _ b t).trans (extui_apply _ _ _))

/-- Window 5's array: the target validity bits as a column. -/
theorem V_v49 (c : Dev nD) (b : Fin 256) (t : Fin 128) :
    V m c main_v49 (ix3 b t (0 : Fin 1)) = (m ((c : Thread nD τ).loc main_arg3) (ix2 b t)).setWidth 32 := by
  have e : (V m c main_v49 : S256x128x1.Idx → BitVec 32)
      = broadcastInDim S256x128x1 ![0, 1] bcast_S256x128_S256x128x1_0_1
          (extui 32 (m ((c : Thread nD τ).loc main_arg3)) natLt_1_32) := by
    host_contents
  exact (congrFun e _).trans ((column_apply _ b t).trans (extui_apply _ _ _))

end Cert.KernelIdeal.HostSide

end
-- ==== Proof.KernelArrays.lean ====
/-
  From the kernel's blocks to its whole arrays, and the kernel's run.

  The grid has 32 points; point t works on batch elements 8t … 8t+7: every window's block at t is rows
  [8t, 8t+8) of its array along the batch axis and the whole of the two other axes. So an element (b, r, q) of a
  block at point t is element (8t + b, r, q) of the array, what point t writes back is block t of ONE function of the
  whole arrays, and since every batch element B lies in the block of point B / 8 the four output arrays end as the
  four functions of `Cert.TwoWayAttn` of the staged rows and validity bits.
-/
import proofs.«170620_j29867202576855_2_alg».proof.Proof.Gen.KernelIdeal.Value
import proofs.«170620_j29867202576855_2_alg».proof.Proof.KernelRows
import proofs.«170620_j29867202576855_2_alg».proof.Proof.HostSide
import proofs.«170620_j29867202576855_2_alg».proof.Proof.AttnSpec
import Idealize.ShloMosaic.Lib.Pipeline.Value
import Idealize.ShloMosaic.Lib.ValueIdx

noncomputable section

namespace Cert.KernelIdeal.Arrays

open Cert.KernelIdeal Cert.KernelIdeal.Gen Cert.TwoWayAttn Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The four arrays the result is a function of -/

/-- The source rows [256, 128, 1024]: the gathered and smoothed embeddings of the source token ids. -/
abbrev Sarr (c : Dev nD) : S256x128x1024.Idx → EReal :=
  HostSide.pooled (m ((c : Thread nD τ).loc main_arg0)) (m ((c : Thread nD τ).loc main_arg4))

/-- The target rows [256, 128, 1024]. -/
abbrev Tarr (c : Dev nD) : S256x128x1024.Idx → EReal :=
  HostSide.pooled (m ((c : Thread nD τ).loc main_arg1)) (m ((c : Thread nD τ).loc main_arg5))

/-- The source validity bits [256, 128]. -/
abbrev sm (c : Dev nD) : S256x128.Idx → BitVec 1 := m ((c : Thread nD τ).loc main_arg2)

/-- The target validity bits [256, 128]. -/
abbrev tm (c : Dev nD) : S256x128.Idx → BitVec 1 := m ((c : Thread nD τ).loc main_arg3)

/-! ## Index arithmetic of the grid -/

theorem hz : (![0, 0, 0] : Fin 3 → Nat) = fun _ => 0 := funext fun a => by fin_cases a <;> rfl

/-- The batch element that element `b` of point `t`'s block is: 8t + b. -/
def bat (t : Fin cfg0.N) (b : Fin 8) : Fin 256 :=
  ⟨8 * t.val + b.val, by have h : t.val < 32 := Nat.lt_of_lt_of_eq t.isLt (show cfg0.N = 32 from N_0); omega⟩

theorem bat_val (t : Fin cfg0.N) (b : Fin 8) : (bat t b).val = 8 * t.val + b.val := rfl

/-- Every window's index map is t ↦ (t, 0, 0), decided over the 32 points. -/
theorem idx_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx_4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx_5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx_6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx_7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx_8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idx_9 : ∀ t : Fin cfg0.N, win0_9.index t (0 : Fin 3) = t.val ∧ win0_9.index t (1 : Fin 3) = 0 ∧ win0_9.index t (2 : Fin 3) = 0 :=
  (by decide +kernel : ∀ t : Fin grid0.N, _)

/-! ## An element of a block is an element of the array

Element (b, r, q) of window w's block at point t sits at (8t + b, r, q) of the window's array: on every axis the
coordinate is block index × block size + the coordinate inside the block, and the block index is (t, 0, 0). -/

theorem emb_0 (t : Fin cfg0.N) (b : Fin 8) (r : Fin 128) (q : Fin 1024) :
    ((cfg0.win 0).blk t).view.emb (ix3 b r q) = ix3 (bat t b) r q := by
  obtain ⟨e0, e1, e2⟩ := idx_0 t
  funext a; apply Fin.ext
  match a with
  | ⟨0, _⟩ => show win0_0.index t (0 : Fin 3) * 8 + 1 * b.val = 8 * t.val + b.val; omega
  | ⟨1, _⟩ => show win0_0.index t (1 : Fin 3) * 128 + 1 * r.val = r.val; omega
  | ⟨2, _⟩ => show win0_0.index t (2 : Fin 3) * 1024 + 1 * q.val = q.val; omega

theorem emb_1 (t : Fin cfg0.N) (b : Fin 8) (r : Fin 128) (q : Fin 1024) :
    ((cfg0.win 1).blk t).view.emb (ix3 b r q) = ix3 (bat t b) r q := by
  obtain ⟨e0, e1, e2⟩ := idx_1 t
  funext a; apply Fin.ext
  match a with
  | ⟨0, _⟩ => show win0_1.index t (0 : Fin 3) * 8 + 1 * b.val = 8 * t.val + b.val; omega
  | ⟨1, _⟩ => show win0_1.index t (1 : Fin 3) * 128 + 1 * r.val = r.val; omega
  | ⟨2, _⟩ => show win0_1.index t (2 : Fin 3) * 1024 + 1 * q.val = q.val; omega

theorem emb_2 (t : Fin cfg0.N) (b : Fin 8) (r : Fin 1) (q : Fin 128) :
    ((cfg0.win 2).blk t).view.emb (ix3 b r q) = ix3 (bat t b) r q := by
  obtain ⟨e0, e1, e2⟩ := idx_2 t
  funext a; apply Fin.ext
  match a with
  | ⟨0, _⟩ => show win0_2.index t (0 : Fin 3) * 8 + 1 * b.val = 8 * t.val + b.val; omega
  | ⟨1, _⟩ => show win0_2.index t (1 : Fin 3) * 1 + 1 * r.val = r.val; omega
  | ⟨2, _⟩ => show win0_2.index t (2 : Fin 3) * 128 + 1 * q.val = q.val; omega

theorem emb_3 (t : Fin cfg0.N) (b : Fin 8) (r : Fin 128) (q : Fin 1) :
    ((cfg0.win 3).blk t).view.emb (ix3 b r q) = ix3 (bat t b) r q := by
  obtain ⟨e0, e1, e2⟩ := idx_3 t
  funext a; apply Fin.ext
  match a with
  | ⟨0, _⟩ => show win0_3.index t (0 : Fin 3) * 8 + 1 * b.val = 8 * t.val + b.val; omega
  | ⟨1, _⟩ => show win0_3.index t (1 : Fin 3) * 128 + 1 * r.val = r.val; omega
  | ⟨2, _⟩ => show win0_3.index t (2 : Fin 3) * 1 + 1 * q.val = q.val; omega

theorem emb_4 (t : Fin cfg0.N) (b : Fin 8) (r : Fin 1) (q : Fin 128) :
    ((cfg0.win 4).blk t).view.emb (ix3 b r q) = ix3 (bat t b) r q := by
  obtain ⟨e0, e1, e2⟩ := idx_4 t
  funext a; apply Fin.ext
  match a with
  | ⟨0, _⟩ => show win0_4.index t (0 : Fin 3) * 8 + 1 * b.val = 8 * t.val + b.val; omega
  | ⟨1, _⟩ => show win0_4.index t (1 : Fin 3) * 1 + 1 * r.val = r.val; omega
  | ⟨2, _⟩ => show win0_4.index t (2 : Fin 3) * 128 + 1 * q.val = q.val; omega

theorem emb_5 (t : Fin cfg0.N) (b : Fin 8) (r : Fin 128) (q : Fin 1) :
    ((cfg0.win 5).blk t).view.emb (ix3 b r q) = ix3 (bat t b) r q := by
  obtain ⟨e0, e1, e2⟩ := idx_5 t
  funext a; apply Fin.ext
  match a with
  | ⟨0, _⟩ => show win0_5.index t (0 : Fin 3) * 8 + 1 * b.val = 8 * t.val + b.val; omega
  | ⟨1, _⟩ => show win0_5.index t (1 : Fin 3) * 128 + 1 * r.val = r.val; omega
  | ⟨2, _⟩ => show win0_5.index t (2 : Fin 3) * 1 + 1 * q.val = q.val; omega

theorem emb_6 (t : Fin cfg0.N) (b : Fin 8) (r : Fin 128) (q : Fin 1024) :
    ((cfg0.win 6).blk t).view.emb (ix3 b r q) = ix3 (bat t b) r q := by
  obtain ⟨e0, e1, e2⟩ := idx_6 t
  funext a; apply Fin.ext
  match a with
  | ⟨0, _⟩ => show win0_6.index t (0 : Fin 3) * 8 + 1 * b.val = 8 * t.val + b.val; omega
  | ⟨1, _⟩ => show win0_6.index t (1 : Fin 3) * 128 + 1 * r.val = r.val; omega
  | ⟨2, _⟩ => show win0_6.index t (2 : Fin 3) * 1024 + 1 * q.val = q.val; omega

theorem emb_7 (t : Fin cfg0.N) (b : Fin 8) (r : Fin 128) (q : Fin 128) :
    ((cfg0.win 7).blk t).view.emb (ix3 b r q) = ix3 (bat t b) r q := by
  obtain ⟨e0, e1, e2⟩ := idx_7 t
  funext a; apply Fin.ext
  match a with
  | ⟨0, _⟩ => show win0_7.index t (0 : Fin 3) * 8 + 1 * b.val = 8 * t.val + b.val; omega
  | ⟨1, _⟩ => show win0_7.index t (1 : Fin 3) * 128 + 1 * r.val = r.val; omega
  | ⟨2, _⟩ => show win0_7.index t (2 : Fin 3) * 128 + 1 * q.val = q.val; omega

theorem emb_8 (t : Fin cfg0.N) (b : Fin 8) (r : Fin 128) (q : Fin 128) :
    ((cfg0.win 8).blk t).view.emb (ix3 b r q) = ix3 (bat t b) r q := by
  obtain ⟨e0, e1, e2⟩ := idx_8 t
  funext a; apply Fin.ext
  match a with
  | ⟨0, _⟩ => show win0_8.index t (0 : Fin 3) * 8 + 1 * b.val = 8 * t.val + b.val; omega
  | ⟨1, _⟩ => show win0_8.index t (1 : Fin 3) * 128 + 1 * r.val = r.val; omega
  | ⟨2, _⟩ => show win0_8.index t (2 : Fin 3) * 128 + 1 * q.val = q.val; omega

theorem emb_9 (t : Fin cfg0.N) (b : Fin 8) (r : Fin 128) (q : Fin 1024) :
    ((cfg0.win 9).blk t).view.emb (ix3 b r q) = ix3 (bat t b) r q := by
  obtain ⟨e0, e1, e2⟩ := idx_9 t
  funext a; apply Fin.ext
  match a with
  | ⟨0, _⟩ => show win0_9.index t (0 : Fin 3) * 8 + 1 * b.val = 8 * t.val + b.val; omega
  | ⟨1, _⟩ => show win0_9.index t (1 : Fin 3) * 128 + 1 * r.val = r.val; omega
  | ⟨2, _⟩ => show win0_9.index t (2 : Fin 3) * 1024 + 1 * q.val = q.val; omega

/-! ## The four payloads at an element of a block, as functions of whole arrays

Stated for arbitrary blocks `X0 … X5` and arbitrary arrays: if batch `b` of the blocks is batch `B` of the arrays (rows
equal, and the 0/1 integers are the validity bits widened), the value the body stores at (b, ·, ·) is the array function
at (B, ·, ·). The product of two widened bits is non-zero exactly when both bits are set. -/

/-- A conjunction of two bits does not depend on their order. -/
theorem andi_comm1 (a b : BitVec 1) : IntOp.andi a b = IntOp.andi b a := by
  rcases BitVec.eq_zero_or_eq_one a with h | h <;> rcases BitVec.eq_zero_or_eq_one b with h' | h' <;>
    subst h <;> subst h' <;> decide

section Point

variable (X0 X1 : Vec Ideal S8x128x1024 .bf16) (X2 : Vec Ideal S8x1x128 .i32) (X3 : Vec Ideal S8x128x1 .i32)
  (X4 : Vec Ideal S8x1x128 .i32) (X5 : Vec Ideal S8x128x1 .i32)
  (Ta Sa : S256x128x1024.Idx → EReal) (smk tmk : S256x128.Idx → BitVec 1) (B : Fin 256) (b : Fin 8)

/-- The mask of target position r against source position q, from the target bits as a column and the source bits as
    a row. -/
theorem kmask_ts (h5 : ∀ r : Fin 128, X5 (ix3 b r (0 : Fin 1)) = (tmk (ix2 B r)).setWidth 32)
    (h2 : ∀ q : Fin 128, X2 (ix3 b (0 : Fin 1) q) = (smk (ix2 B q)).setWidth 32) :
    Rows.kmask X5 X2 b = maskOf smk tmk B := by
  funext r q
  show IntOp.cmpi .ne (IntOp.muli (X5 (ix3 b r (0 : Fin 1))) (X2 (ix3 b (0 : Fin 1) q))) 0#32 = IntOp.andi (smk (ix2 B q)) (tmk (ix2 B r))
  rw [h5 r, h2 q]
  exact mul_ne_zero_eq_and (tmk (ix2 B r)) (smk (ix2 B q))

/-- The mask of source position s against target position t, from the source bits as a column and the target bits as
    a row. -/
theorem kmask_st (h3 : ∀ s : Fin 128, X3 (ix3 b s (0 : Fin 1)) = (smk (ix2 B s)).setWidth 32)
    (h4 : ∀ t : Fin 128, X4 (ix3 b (0 : Fin 1) t) = (tmk (ix2 B t)).setWidth 32) :
    Rows.kmask X3 X4 b = maskOfT smk tmk B := by
  funext s t
  show IntOp.cmpi .ne (IntOp.muli (X3 (ix3 b s (0 : Fin 1))) (X4 (ix3 b (0 : Fin 1) t))) 0#32 = IntOp.andi (smk (ix2 B s)) (tmk (ix2 B t))
  rw [h3 s, h4 t]
  exact (mul_ne_zero_eq_and (smk (ix2 B s)) (tmk (ix2 B t))).trans (andi_comm1 _ _)

theorem rows_eq (X : Vec Ideal S8x128x1024 .bf16) (A : S256x128x1024.Idx → EReal)
    (h : ∀ (r : Fin 128) (k : Fin 1024), X (ix3 b r k) = A (ix3 B r k)) : rowsOf X b = rowsOf A B :=
  funext fun r => funext fun k => h r k

/-- Target-to-source weights. -/
theorem ta_soft_point (h0 : ∀ (r : Fin 128) (k : Fin 1024), X0 (ix3 b r k) = Sa (ix3 B r k))
    (h1 : ∀ (r : Fin 128) (k : Fin 1024), X1 (ix3 b r k) = Ta (ix3 B r k))
    (h5 : ∀ r : Fin 128, X5 (ix3 b r (0 : Fin 1)) = (tmk (ix2 B r)).setWidth 32)
    (h2 : ∀ q : Fin 128, X2 (ix3 b (0 : Fin 1) q) = (smk (ix2 B q)).setWidth 32) (r q : Fin 128) :
    k0_pay6 (F := Ideal) X0 X1 X5 X2 (ix3 b r q) = taSoftArr Ta Sa smk tmk (ix3 B r q) := by
  refine (Rows.ta_soft_block X0 X1 X5 X2 b r q).trans ?_
  show taSoft (rowsOf X1 b) (rowsOf X0 b) (Rows.kmask X5 X2 b) r q = taSoft (rowsOf Ta B) (rowsOf Sa B) (maskOf smk tmk B) r q
  rw [rows_eq B b X0 Sa h0, rows_eq B b X1 Ta h1, kmask_ts X2 X5 smk tmk B b h5 h2]

/-- Source attention. -/
theorem src_att_point (h0 : ∀ (r : Fin 128) (k : Fin 1024), X0 (ix3 b r k) = Sa (ix3 B r k))
    (h1 : ∀ (r : Fin 128) (k : Fin 1024), X1 (ix3 b r k) = Ta (ix3 B r k))
    (h5 : ∀ r : Fin 128, X5 (ix3 b r (0 : Fin 1)) = (tmk (ix2 B r)).setWidth 32)
    (h2 : ∀ q : Fin 128, X2 (ix3 b (0 : Fin 1) q) = (smk (ix2 B q)).setWidth 32) (r : Fin 128) (k : Fin 1024) :
    k0_pay7 (F := Ideal) X0 X1 X5 X2 (ix3 b r k) = srcAttArr Ta Sa smk tmk (ix3 B r k) := by
  refine (Rows.src_att_block X0 X1 X5 X2 b r k).trans ?_
  show srcAtt (rowsOf X1 b) (rowsOf X0 b) (Rows.kmask X5 X2 b) r k = srcAtt (rowsOf Ta B) (rowsOf Sa B) (maskOf smk tmk B) r k
  rw [rows_eq B b X0 Sa h0, rows_eq B b X1 Ta h1, kmask_ts X2 X5 smk tmk B b h5 h2]

/-- Source-to-target weights. -/
theorem at_soft_point (h0 : ∀ (r : Fin 128) (k : Fin 1024), X0 (ix3 b r k) = Sa (ix3 B r k))
    (h1 : ∀ (r : Fin 128) (k : Fin 1024), X1 (ix3 b r k) = Ta (ix3 B r k))
    (h5 : ∀ r : Fin 128, X5 (ix3 b r (0 : Fin 1)) = (tmk (ix2 B r)).setWidth 32)
    (h2 : ∀ q : Fin 128, X2 (ix3 b (0 : Fin 1) q) = (smk (ix2 B q)).setWidth 32)
    (h3 : ∀ s : Fin 128, X3 (ix3 b s (0 : Fin 1)) = (smk (ix2 B s)).setWidth 32)
    (h4 : ∀ t : Fin 128, X4 (ix3 b (0 : Fin 1) t) = (tmk (ix2 B t)).setWidth 32) (s t : Fin 128) :
    k0_pay1 (F := Ideal) (k0_pay8 X0 X1 X5 X2) (k0_pay9 (F := Ideal) X3) (k0_pay10 (F := Ideal) X4) (ix3 b s t)
      = atSoftArr Ta Sa smk tmk (ix3 B s t) := by
  refine (Rows.at_soft_block X0 X1 X5 X2 X3 X4 b s t).trans ?_
  show atSoft (rowsOf X1 b) (rowsOf X0 b) (Rows.kmask X5 X2 b) (Rows.kmask X3 X4 b) s t
    = atSoft (rowsOf Ta B) (rowsOf Sa B) (maskOf smk tmk B) (maskOfT smk tmk B) s t
  rw [rows_eq B b X0 Sa h0, rows_eq B b X1 Ta h1, kmask_ts X2 X5 smk tmk B b h5 h2, kmask_st X3 X4 smk tmk B b h3 h4]

/-- Target attention. -/
theorem tgt_att_point (h0 : ∀ (r : Fin 128) (k : Fin 1024), X0 (ix3 b r k) = Sa (ix3 B r k))
    (h1 : ∀ (r : Fin 128) (k : Fin 1024), X1 (ix3 b r k) = Ta (ix3 B r k))
    (h5 : ∀ r : Fin 128, X5 (ix3 b r (0 : Fin 1)) = (tmk (ix2 B r)).setWidth 32)
    (h2 : ∀ q : Fin 128, X2 (ix3 b (0 : Fin 1) q) = (smk (ix2 B q)).setWidth 32)
    (h3 : ∀ s : Fin 128, X3 (ix3 b s (0 : Fin 1)) = (smk (ix2 B s)).setWidth 32)
    (h4 : ∀ t : Fin 128, X4 (ix3 b (0 : Fin 1) t) = (tmk (ix2 B t)).setWidth 32) (s : Fin 128) (k : Fin 1024) :
    k0_pay2 (F := Ideal) (k0_pay4 X1) (k0_pay8 X0 X1 X5 X2) (k0_pay9 (F := Ideal) X3) (k0_pay10 (F := Ideal) X4) (ix3 b s k)
      = tgtAttArr Ta Sa smk tmk (ix3 B s k) := by
  refine (Rows.tgt_att_block X0 X1 X5 X2 X3 X4 b s k).trans ?_
  show tgtAtt (rowsOf X1 b) (rowsOf X0 b) (Rows.kmask X5 X2 b) (Rows.kmask X3 X4 b) s k
    = tgtAtt (rowsOf Ta B) (rowsOf Sa B) (maskOf smk tmk B) (maskOfT smk tmk B) s k
  rw [rows_eq B b X0 Sa h0, rows_eq B b X1 Ta h1, kmask_ts X2 X5 smk tmk B b h5 h2, kmask_st X3 X4 smk tmk B b h3 h4]

end Point

/-! ## The input windows' blocks, read

Batch `b` of each input block at point `t` is batch 8t + b of the staged array, and the staged arrays are the pooled
rows and the widened validity bits. -/

/-- The source rows' block. -/
theorem rows0_read (c : Dev nD) (t : Fin cfg0.N) (b : Fin 8) (r : Fin 128) (k : Fin 1024) :
    (iblk m c 0 t : Vec Ideal S8x128x1024 .bf16) (ix3 b r k) = Sarr m c (ix3 (bat t b) r k) := by
  refine Eq.trans ?_ (HostSide.V_v42 m c (ix3 (bat t b) r k))
  show V m c main_v42 (((cfg0.win 0).blk t).view.emb (ix3 b r k)) = V m c main_v42 (ix3 (bat t b) r k)
  rw [emb_0 t b r k]

/-- The target rows' block. -/
theorem rows1_read (c : Dev nD) (t : Fin cfg0.N) (b : Fin 8) (r : Fin 128) (k : Fin 1024) :
    (iblk m c 1 t : Vec Ideal S8x128x1024 .bf16) (ix3 b r k) = Tarr m c (ix3 (bat t b) r k) := by
  refine Eq.trans ?_ (HostSide.V_v43 m c (ix3 (bat t b) r k))
  show V m c main_v43 (((cfg0.win 1).blk t).view.emb (ix3 b r k)) = V m c main_v43 (ix3 (bat t b) r k)
  rw [emb_1 t b r k]

/-- The source bits' block, as a row. -/
theorem srow_read (c : Dev nD) (t : Fin cfg0.N) (b : Fin 8) (q : Fin 128) :
    (iblk m c 2 t : Vec Ideal S8x1x128 .i32) (ix3 b (0 : Fin 1) q) = (sm m c (ix2 (bat t b) q)).setWidth 32 := by
  refine Eq.trans ?_ (HostSide.V_v46 m c (bat t b) q)
  show V m c main_v46 (((cfg0.win 2).blk t).view.emb (ix3 b (0 : Fin 1) q)) = V m c main_v46 (ix3 (bat t b) (0 : Fin 1) q)
  rw [emb_2 t b (0 : Fin 1) q]

/-- The source bits' block, as a column. -/
theorem scol_read (c : Dev nD) (t : Fin cfg0.N) (b : Fin 8) (r : Fin 128) :
    (iblk m c 3 t : Vec Ideal S8x128x1 .i32) (ix3 b r (0 : Fin 1)) = (sm m c (ix2 (bat t b) r)).setWidth 32 := by
  refine Eq.trans ?_ (HostSide.V_v47 m c (bat t b) r)
  show V m c main_v47 (((cfg0.win 3).blk t).view.emb (ix3 b r (0 : Fin 1))) = V m c main_v47 (ix3 (bat t b) r (0 : Fin 1))
  rw [emb_3 t b r (0 : Fin 1)]

/-- The target bits' block, as a row. -/
theorem trow_read (c : Dev nD) (t : Fin cfg0.N) (b : Fin 8) (q : Fin 128) :
    (iblk m c 4 t : Vec Ideal S8x1x128 .i32) (ix3 b (0 : Fin 1) q) = (tm m c (ix2 (bat t b) q)).setWidth 32 := by
  refine Eq.trans ?_ (HostSide.V_v48 m c (bat t b) q)
  show V m c main_v48 (((cfg0.win 4).blk t).view.emb (ix3 b (0 : Fin 1) q)) = V m c main_v48 (ix3 (bat t b) (0 : Fin 1) q)
  rw [emb_4 t b (0 : Fin 1) q]

/-- The target bits' block, as a column. -/
theorem tcol_read (c : Dev nD) (t : Fin cfg0.N) (b : Fin 8) (r : Fin 128) :
    (iblk m c 5 t : Vec Ideal S8x128x1 .i32) (ix3 b r (0 : Fin 1)) = (tm m c (ix2 (bat t b) r)).setWidth 32 := by
  refine Eq.trans ?_ (HostSide.V_v49 m c (bat t b) r)
  show V m c main_v49 (((cfg0.win 5).blk t).view.emb (ix3 b r (0 : Fin 1))) = V m c main_v49 (ix3 (bat t b) r (0 : Fin 1))
  rw [emb_5 t b r (0 : Fin 1)]

/-! ## What each point writes back -/

/-- Point `t` writes block `t` of the target-to-source weights. -/
theorem flushed_7_eq (c : Dev nD) (t : Fin cfg0.N) :
    (dats m 0 c).flushed 7 t
      = ((cfg0.win 7).blk t).view.read (Elt Ideal) (taSoftArr (Tarr m c) (Sarr m c) (sm m c) (tm m c)) := by
  rw [Value.flushed7]
  unfold out0_7
  rw [View.canon_unit_zero hz]
  simp only [View.ld_unit_zero (S := S8x128x1024) hz, View.ld_unit_zero (S := S8x128x1) hz, View.ld_unit_zero (S := S8x1x128) hz]
  funext y
  obtain ⟨b, r, q, rfl⟩ : ∃ (b : Fin 8) (r : Fin 128) (q : Fin 128), y = ix3 b r q := ⟨y 0, y 1, y 2, eq_ix3 y⟩
  show k0_pay6 (F := Ideal) (iblk m c 0 t) (iblk m c 1 t) (iblk m c 5 t) (iblk m c 2 t) (ix3 b r q)
      = taSoftArr (Tarr m c) (Sarr m c) (sm m c) (tm m c) (((cfg0.win 7).blk t).view.emb (ix3 b r q))
  rw [emb_7 t b r q]
  exact ta_soft_point (iblk m c 0 t) (iblk m c 1 t) (iblk m c 2 t) (iblk m c 5 t) (Tarr m c) (Sarr m c) (sm m c) (tm m c) (bat t b) b
    (fun r k => rows0_read m c t b r k) (fun r k => rows1_read m c t b r k) (fun r => tcol_read m c t b r)
    (fun q => srow_read m c t b q) r q

/-- Point `t` writes block `t` of the source attention. -/
theorem flushed_6_eq (c : Dev nD) (t : Fin cfg0.N) :
    (dats m 0 c).flushed 6 t
      = ((cfg0.win 6).blk t).view.read (Elt Ideal) (srcAttArr (Tarr m c) (Sarr m c) (sm m c) (tm m c)) := by
  rw [Value.flushed6]
  unfold out0_6
  rw [View.canon_unit_zero hz]
  simp only [View.ld_unit_zero (S := S8x128x1024) hz, View.ld_unit_zero (S := S8x128x1) hz, View.ld_unit_zero (S := S8x1x128) hz]
  funext y
  obtain ⟨b, r, q, rfl⟩ : ∃ (b : Fin 8) (r : Fin 128) (q : Fin 1024), y = ix3 b r q := ⟨y 0, y 1, y 2, eq_ix3 y⟩
  show k0_pay7 (F := Ideal) (iblk m c 0 t) (iblk m c 1 t) (iblk m c 5 t) (iblk m c 2 t) (ix3 b r q)
      = srcAttArr (Tarr m c) (Sarr m c) (sm m c) (tm m c) (((cfg0.win 6).blk t).view.emb (ix3 b r q))
  rw [emb_6 t b r q]
  exact src_att_point (iblk m c 0 t) (iblk m c 1 t) (iblk m c 2 t) (iblk m c 5 t) (Tarr m c) (Sarr m c) (sm m c) (tm m c) (bat t b) b
    (fun r k => rows0_read m c t b r k) (fun r k => rows1_read m c t b r k) (fun r => tcol_read m c t b r)
    (fun q => srow_read m c t b q) r q

/-- Point `t` writes block `t` of the source-to-target weights. -/
theorem flushed_8_eq (c : Dev nD) (t : Fin cfg0.N) :
    (dats m 0 c).flushed 8 t
      = ((cfg0.win 8).blk t).view.read (Elt Ideal) (atSoftArr (Tarr m c) (Sarr m c) (sm m c) (tm m c)) := by
  rw [Value.flushed8]
  unfold out0_8
  rw [View.canon_unit_zero hz]
  simp only [View.ld_unit_zero (S := S8x128x1024) hz, View.ld_unit_zero (S := S8x128x1) hz, View.ld_unit_zero (S := S8x1x128) hz]
  funext y
  obtain ⟨b, r, q, rfl⟩ : ∃ (b : Fin 8) (r : Fin 128) (q : Fin 128), y = ix3 b r q := ⟨y 0, y 1, y 2, eq_ix3 y⟩
  show k0_pay1 (F := Ideal) (k0_pay8 (iblk m c 0 t) (iblk m c 1 t) (iblk m c 5 t) (iblk m c 2 t)) (k0_pay9 (F := Ideal) (iblk m c 3 t)) (k0_pay10 (F := Ideal) (iblk m c 4 t)) (ix3 b r q)
      = atSoftArr (Tarr m c) (Sarr m c) (sm m c) (tm m c) (((cfg0.win 8).blk t).view.emb (ix3 b r q))
  rw [emb_8 t b r q]
  exact at_soft_point (iblk m c 0 t) (iblk m c 1 t) (iblk m c 2 t) (iblk m c 3 t) (iblk m c 4 t) (iblk m c 5 t) (Tarr m c) (Sarr m c) (sm m c) (tm m c) (bat t b) b
    (fun r k => rows0_read m c t b r k) (fun r k => rows1_read m c t b r k) (fun r => tcol_read m c t b r)
    (fun q => srow_read m c t b q) (fun s => scol_read m c t b s) (fun q => trow_read m c t b q) r q

/-- Point `t` writes block `t` of the target attention. -/
theorem flushed_9_eq (c : Dev nD) (t : Fin cfg0.N) :
    (dats m 0 c).flushed 9 t
      = ((cfg0.win 9).blk t).view.read (Elt Ideal) (tgtAttArr (Tarr m c) (Sarr m c) (sm m c) (tm m c)) := by
  rw [Value.flushed9]
  unfold out0_9
  rw [View.canon_unit_zero hz]
  simp only [View.ld_unit_zero (S := S8x128x1024) hz, View.ld_unit_zero (S := S8x128x1) hz, View.ld_unit_zero (S := S8x1x128) hz]
  funext y
  obtain ⟨b, r, q, rfl⟩ : ∃ (b : Fin 8) (r : Fin 128) (q : Fin 1024), y = ix3 b r q := ⟨y 0, y 1, y 2, eq_ix3 y⟩
  show k0_pay2 (F := Ideal) (k0_pay4 (iblk m c 1 t)) (k0_pay8 (iblk m c 0 t) (iblk m c 1 t) (iblk m c 5 t) (iblk m c 2 t)) (k0_pay9 (F := Ideal) (iblk m c 3 t)) (k0_pay10 (F := Ideal) (iblk m c 4 t)) (ix3 b r q)
      = tgtAttArr (Tarr m c) (Sarr m c) (sm m c) (tm m c) (((cfg0.win 9).blk t).view.emb (ix3 b r q))
  rw [emb_9 t b r q]
  exact tgt_att_point (iblk m c 0 t) (iblk m c 1 t) (iblk m c 2 t) (iblk m c 3 t) (iblk m c 4 t) (iblk m c 5 t) (Tarr m c) (Sarr m c) (sm m c) (tm m c) (bat t b) b
    (fun r k => rows0_read m c t b r k) (fun r k => rows1_read m c t b r k) (fun r => tcol_read m c t b r)
    (fun q => srow_read m c t b q) (fun s => scol_read m c t b s) (fun q => trow_read m c t b q) r q

/-! ## The blocks cover the arrays

An index of an output array is in point `t`'s block iff each coordinate is in the block's range on its axis. -/

theorem mem_blk_6 (t : Fin cfg0.N) (i : S256x128x1024.Idx) :
    i ∈ ((cfg0.win 6).blk t).view.set ↔ ∀ a : Fin 3, win0_6.index t a * S8x128x1024.size a ≤ (i a).val ∧ (i a).val < win0_6.index t a * S8x128x1024.size a + S8x128x1024.size a := by
  show i ∈ ((View.whole main_v50_0).slice (win0_6.rect t)).set ↔ _
  rw [View.set_slice_whole, Rect.mem_set_unit]
  exact Iff.rfl

/-- Batch element B lies in the block of point B / 8. -/
theorem cover_6 (i : S256x128x1024.Idx) : ∃ t : Fin cfg0.N, (cfg0.win 6).flush t = true ∧ i ∈ ((cfg0.win 6).blk t).view.set := by
  have hi0 : (i 0).val < 256 := (i 0).isLt
  have hi1 : (i 1).val < 128 := (i 1).isLt
  have hi2 : (i 2).val < 1024 := (i 2).isLt
  obtain ⟨t, ht⟩ : ∃ t : Fin cfg0.N, t.val = (i 0).val / 8 :=
    ⟨⟨(i 0).val / 8, Nat.lt_of_lt_of_eq (by omega : (i 0).val / 8 < 32) (show cfg0.N = 32 from N_0).symm⟩, rfl⟩
  obtain ⟨e0, e1, e2⟩ := idx_6 t
  refine ⟨t, flush0_6 t, ?_⟩
  rw [mem_blk_6]
  intro a
  match a with
  | ⟨0, _⟩ => show win0_6.index t (0 : Fin 3) * 8 ≤ (i 0).val ∧ (i 0).val < win0_6.index t (0 : Fin 3) * 8 + 8; omega
  | ⟨1, _⟩ => show win0_6.index t (1 : Fin 3) * 128 ≤ (i 1).val ∧ (i 1).val < win0_6.index t (1 : Fin 3) * 128 + 128; omega
  | ⟨2, _⟩ => show win0_6.index t (2 : Fin 3) * 1024 ≤ (i 2).val ∧ (i 2).val < win0_6.index t (2 : Fin 3) * 1024 + 1024; omega

theorem mem_blk_7 (t : Fin cfg0.N) (i : S256x128x128.Idx) :
    i ∈ ((cfg0.win 7).blk t).view.set ↔ ∀ a : Fin 3, win0_7.index t a * S8x128x128.size a ≤ (i a).val ∧ (i a).val < win0_7.index t a * S8x128x128.size a + S8x128x128.size a := by
  show i ∈ ((View.whole main_v50_1).slice (win0_7.rect t)).set ↔ _
  rw [View.set_slice_whole, Rect.mem_set_unit]
  exact Iff.rfl

/-- Batch element B lies in the block of point B / 8. -/
theorem cover_7 (i : S256x128x128.Idx) : ∃ t : Fin cfg0.N, (cfg0.win 7).flush t = true ∧ i ∈ ((cfg0.win 7).blk t).view.set := by
  have hi0 : (i 0).val < 256 := (i 0).isLt
  have hi1 : (i 1).val < 128 := (i 1).isLt
  have hi2 : (i 2).val < 128 := (i 2).isLt
  obtain ⟨t, ht⟩ : ∃ t : Fin cfg0.N, t.val = (i 0).val / 8 :=
    ⟨⟨(i 0).val / 8, Nat.lt_of_lt_of_eq (by omega : (i 0).val / 8 < 32) (show cfg0.N = 32 from N_0).symm⟩, rfl⟩
  obtain ⟨e0, e1, e2⟩ := idx_7 t
  refine ⟨t, flush0_7 t, ?_⟩
  rw [mem_blk_7]
  intro a
  match a with
  | ⟨0, _⟩ => show win0_7.index t (0 : Fin 3) * 8 ≤ (i 0).val ∧ (i 0).val < win0_7.index t (0 : Fin 3) * 8 + 8; omega
  | ⟨1, _⟩ => show win0_7.index t (1 : Fin 3) * 128 ≤ (i 1).val ∧ (i 1).val < win0_7.index t (1 : Fin 3) * 128 + 128; omega
  | ⟨2, _⟩ => show win0_7.index t (2 : Fin 3) * 128 ≤ (i 2).val ∧ (i 2).val < win0_7.index t (2 : Fin 3) * 128 + 128; omega

theorem mem_blk_8 (t : Fin cfg0.N) (i : S256x128x128.Idx) :
    i ∈ ((cfg0.win 8).blk t).view.set ↔ ∀ a : Fin 3, win0_8.index t a * S8x128x128.size a ≤ (i a).val ∧ (i a).val < win0_8.index t a * S8x128x128.size a + S8x128x128.size a := by
  show i ∈ ((View.whole main_v50_2).slice (win0_8.rect t)).set ↔ _
  rw [View.set_slice_whole, Rect.mem_set_unit]
  exact Iff.rfl

/-- Batch element B lies in the block of point B / 8. -/
theorem cover_8 (i : S256x128x128.Idx) : ∃ t : Fin cfg0.N, (cfg0.win 8).flush t = true ∧ i ∈ ((cfg0.win 8).blk t).view.set := by
  have hi0 : (i 0).val < 256 := (i 0).isLt
  have hi1 : (i 1).val < 128 := (i 1).isLt
  have hi2 : (i 2).val < 128 := (i 2).isLt
  obtain ⟨t, ht⟩ : ∃ t : Fin cfg0.N, t.val = (i 0).val / 8 :=
    ⟨⟨(i 0).val / 8, Nat.lt_of_lt_of_eq (by omega : (i 0).val / 8 < 32) (show cfg0.N = 32 from N_0).symm⟩, rfl⟩
  obtain ⟨e0, e1, e2⟩ := idx_8 t
  refine ⟨t, flush0_8 t, ?_⟩
  rw [mem_blk_8]
  intro a
  match a with
  | ⟨0, _⟩ => show win0_8.index t (0 : Fin 3) * 8 ≤ (i 0).val ∧ (i 0).val < win0_8.index t (0 : Fin 3) * 8 + 8; omega
  | ⟨1, _⟩ => show win0_8.index t (1 : Fin 3) * 128 ≤ (i 1).val ∧ (i 1).val < win0_8.index t (1 : Fin 3) * 128 + 128; omega
  | ⟨2, _⟩ => show win0_8.index t (2 : Fin 3) * 128 ≤ (i 2).val ∧ (i 2).val < win0_8.index t (2 : Fin 3) * 128 + 128; omega

theorem mem_blk_9 (t : Fin cfg0.N) (i : S256x128x1024.Idx) :
    i ∈ ((cfg0.win 9).blk t).view.set ↔ ∀ a : Fin 3, win0_9.index t a * S8x128x1024.size a ≤ (i a).val ∧ (i a).val < win0_9.index t a * S8x128x1024.size a + S8x128x1024.size a := by
  show i ∈ ((View.whole main_v50_3).slice (win0_9.rect t)).set ↔ _
  rw [View.set_slice_whole, Rect.mem_set_unit]
  exact Iff.rfl

/-- Batch element B lies in the block of point B / 8. -/
theorem cover_9 (i : S256x128x1024.Idx) : ∃ t : Fin cfg0.N, (cfg0.win 9).flush t = true ∧ i ∈ ((cfg0.win 9).blk t).view.set := by
  have hi0 : (i 0).val < 256 := (i 0).isLt
  have hi1 : (i 1).val < 128 := (i 1).isLt
  have hi2 : (i 2).val < 1024 := (i 2).isLt
  obtain ⟨t, ht⟩ : ∃ t : Fin cfg0.N, t.val = (i 0).val / 8 :=
    ⟨⟨(i 0).val / 8, Nat.lt_of_lt_of_eq (by omega : (i 0).val / 8 < 32) (show cfg0.N = 32 from N_0).symm⟩, rfl⟩
  obtain ⟨e0, e1, e2⟩ := idx_9 t
  refine ⟨t, flush0_9 t, ?_⟩
  rw [mem_blk_9]
  intro a
  match a with
  | ⟨0, _⟩ => show win0_9.index t (0 : Fin 3) * 8 ≤ (i 0).val ∧ (i 0).val < win0_9.index t (0 : Fin 3) * 8 + 8; omega
  | ⟨1, _⟩ => show win0_9.index t (1 : Fin 3) * 128 ≤ (i 1).val ∧ (i 1).val < win0_9.index t (1 : Fin 3) * 128 + 128; omega
  | ⟨2, _⟩ => show win0_9.index t (2 : Fin 3) * 1024 ≤ (i 2).val ∧ (i 2).val < win0_9.index t (2 : Fin 3) * 1024 + 1024; omega

/-! ## The arrays after the run -/

/-- The array after the run. -/
theorem final_6 (c : Dev nD) : (dats m 0 c).arrAt 6 cfg0.N = srcAttArr (Tarr m c) (Sarr m c) (sm m c) (tm m c) :=
  (dats m 0 c).arrAt_eq_of_cover 6 (srcAttArr (Tarr m c) (Sarr m c) (sm m c) (tm m c)) (fun t _ => flushed_6_eq m c t) cover_6

/-- The array after the run. -/
theorem final_7 (c : Dev nD) : (dats m 0 c).arrAt 7 cfg0.N = taSoftArr (Tarr m c) (Sarr m c) (sm m c) (tm m c) :=
  (dats m 0 c).arrAt_eq_of_cover 7 (taSoftArr (Tarr m c) (Sarr m c) (sm m c) (tm m c)) (fun t _ => flushed_7_eq m c t) cover_7

/-- The array after the run. -/
theorem final_8 (c : Dev nD) : (dats m 0 c).arrAt 8 cfg0.N = atSoftArr (Tarr m c) (Sarr m c) (sm m c) (tm m c) :=
  (dats m 0 c).arrAt_eq_of_cover 8 (atSoftArr (Tarr m c) (Sarr m c) (sm m c) (tm m c)) (fun t _ => flushed_8_eq m c t) cover_8

/-- The array after the run. -/
theorem final_9 (c : Dev nD) : (dats m 0 c).arrAt 9 cfg0.N = tgtAttArr (Tarr m c) (Sarr m c) (sm m c) (tm m c) :=
  (dats m 0 c).arrAt_eq_of_cover 9 (tgtAttArr (Tarr m c) (Sarr m c) (sm m c) (tm m c)) (fun t _ => flushed_9_eq m c t) cover_9

/-! ## The run, read -/

/-- The frame run re-posted: the two pooled arrays @main returns, the four output arrays at their functions of the
    staged rows and validity bits, the arguments unchanged. -/
theorem run : θ_run (defs (F := Ideal)) (onTc (τ := τ) (main (F := Ideal))) ⟨m, fun _ => 0, ρ⟩ fun r => ∀ c : Dev nD,
      r.2.mem ((c : Thread nD τ).loc main_v20) = Sarr m c
    ∧ r.2.mem ((c : Thread nD τ).loc main_v50_0) = srcAttArr (Tarr m c) (Sarr m c) (sm m c) (tm m c)
    ∧ r.2.mem ((c : Thread nD τ).loc main_v50_2) = atSoftArr (Tarr m c) (Sarr m c) (sm m c) (tm m c)
    ∧ r.2.mem ((c : Thread nD τ).loc main_v41) = Tarr m c
    ∧ r.2.mem ((c : Thread nD τ).loc main_v50_3) = tgtAttArr (Tarr m c) (Sarr m c) (sm m c) (tm m c)
    ∧ r.2.mem ((c : Thread nD τ).loc main_v50_1) = taSoftArr (Tarr m c) (Sarr m c) (sm m c) (tm m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun r h c => ⟨
      ((h c).2 main_v20 (Pipeline.mem_restRefs_of main_v20 (by decide) (by decide))).trans (HostSide.V_v20 m c),
      (Value.post6 m r h c).trans (final_6 m c),
      (Value.post8 m r h c).trans (final_8 m c),
      ((h c).2 main_v41 (Pipeline.mem_restRefs_of main_v41 (by decide) (by decide))).trans (HostSide.V_v41 m c),
      (Value.post9 m r h c).trans (final_9 m c),
      (Value.post7 m r h c).trans (final_7 m c),
      Value.kept_main_arg0 m r h c,
      Value.kept_main_arg1 m r h c,
      Value.kept_main_arg2 m r h c,
      Value.kept_main_arg3 m r h c,
      Value.kept_main_arg4 m r h c,
      Value.kept_main_arg5 m r h c⟩)
    (run_main m ρ)

end Cert.KernelIdeal.Arrays

end
-- ==== Proof.RefArrays.lean ====
/-
  The reference program's four attention arrays, index by index.

  With T the target rows and S the source rows (both [256, 128, 1024], kept as opaque arrays), x2 the source validity
  bits and x3 the target validity bits (both [256, 128]):
  * the mask array at (b, s, t) is the conjunction of source bit (b, s) and target bit (b, t);
  * the score array at (b, t, s) is the inner product of target row (b, t) and source row (b, s) where the transposed
    mask is set and the fill value elsewhere: the masked score of the specification;
  * a softmax over the last axis, as the program spells it (row maximum from -∞, compared with -∞ once more, put back
    beside every entry, subtracted; the exponential; the row's sum from 0, put back; the quotient), is at (b, r, q) the
    specification's row softmax of row (b, r) at q;
  * the two matrix products are sums over the contracted position.
-/
import proofs.«170620_j29867202576855_2_alg».proof.Proof.Gen.ReferenceIdeal.Read
import proofs.«170620_j29867202576855_2_alg».proof.Proof.AttnSpec
import Idealize.ShloMosaic.Lib.ValueIdx
import Idealize.ShloMosaic.Lib.Pipeline.Value
import Idealize.ShloMosaic.PureOps.Ideal.Laws

noncomputable section

namespace Cert.ReferenceIdeal.Arrays

open Cert.ReferenceIdeal Cert.ReferenceIdeal.Gen Cert.ReferenceIdeal.Read Cert.TwoWayAttn Idealize.ShloMosaic
  Idealize.ShloMosaic.ValueIdx

variable (x0 x1 : (⟨S256x128, .i32⟩ : BufTy).Contents (Elt Ideal)) (x2 x3 : (⟨S256x128, .i1⟩ : BufTy).Contents (Elt Ideal))
  (x4 x5 : (⟨S32000x1024, .f32⟩ : BufTy).Contents (Elt Ideal))

/-! ## The mask and the scores -/

/-- The mask array at (b, s, t): source bit (b, s) and target bit (b, t). -/
theorem mask_at (b : Fin 256) (s t : Fin 128) :
    Read.val_main_v46 (F := Ideal) x2 x3 (ix3 b s t) = IntOp.andi (x2 (ix2 b s)) (x3 (ix2 b t)) := by
  rw [val_main_v46_apply, val_main_v44_apply, val_main_v42_apply, val_main_v45_apply, val_main_v43_apply]
  refine congrArg₂ IntOp.andi (congrArg x2 ?_) (congrArg x3 ?_)
  · exact funext fun a => Fin.ext (by match a with | ⟨0, _⟩ => rfl | ⟨1, _⟩ => rfl)
  · exact funext fun a => Fin.ext (by match a with | ⟨0, _⟩ => rfl | ⟨1, _⟩ => rfl)

/-- The transposed mask at (b, t, s) is the mask at (b, s, t). -/
theorem maskT_at (b : Fin 256) (t s : Fin 128) :
    Read.val_main_v48 (F := Ideal) x2 x3 (ix3 b t s) = IntOp.andi (x2 (ix2 b s)) (x3 (ix2 b t)) := by
  rw [val_main_v48_apply]
  refine Eq.trans (congrArg (Read.val_main_v46 (F := Ideal) x2 x3) ?_) (mask_at x2 x3 b s t)
  exact funext fun a => Fin.ext (by match a with | ⟨0, _⟩ => rfl | ⟨1, _⟩ => rfl | ⟨2, _⟩ => rfl)

/-- The unmasked score at (b, t, s): the inner product of target row (b, t) and source row (b, s). -/
theorem dot_at (b : Fin 256) (t s : Fin 128) :
    Read.val_main_v47 (F := Ideal) x0 x1 x4 x5 (ix3 b t s)
      = ∑ k : Fin 1024, Read.val_main_v41 (F := Ideal) x1 x5 (ix3 b t k) * Read.val_main_v20 (F := Ideal) x0 x4 (ix3 b s k) := by
  rw [val_main_v47_apply]
  refine Finset.sum_congr rfl fun k _ => ?_
  refine congrArg₂ (· * ·) (congrArg _ ?_) (congrArg _ ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- The masked score at (b, t, s) is the specification's. -/
theorem score_at (b : Fin 256) (t s : Fin 128) :
    Read.val_main_v49 (F := Ideal) x0 x1 x2 x3 x4 x5 (ix3 b t s)
      = score (rowsOf (Read.val_main_v41 (F := Ideal) x1 x5) b) (rowsOf (Read.val_main_v20 (F := Ideal) x0 x4) b)
          (maskOf x2 x3 b) t s := by
  rw [val_main_v49_apply, maskT_at, dot_at, val_main_call2_v1_apply, val_main_call2_v0_apply, val_main_cst_14_apply]
  rfl

/-! ## A softmax over the last axis, as the program spells it -/

/-- The reduced index (b, r) with coordinate `k` put back on the last axis is (b, r, k). -/
theorem lift_row (h : S256x128x128.Reduces [2] S256x128) (b : Fin 256) (r : Fin 128) (k : Fin (S256x128x128.size 2)) :
    h.lift (ix2 b r) k = ix3 b r (⟨k.val, k.isLt⟩ : Fin 128) := by
  funext d; apply Fin.ext
  match d with
  | ⟨0, _⟩ => rfl
  | ⟨1, _⟩ => rfl
  | ⟨2, _⟩ => rfl

/-- A row statistic [256, 128] put back beside every entry of its row (a unit last axis added, then broadcast along
    it) reads, at (b, r, q), the statistic at (b, r). -/
def keep {α : Type} (R : S256x128.Idx → α) : S256x128x128.Idx → α :=
  broadcastInDim S256x128x128 ![0, 1, 2] bcast_S256x128x1_S256x128x128_0_1_2
    (broadcastInDim S256x128x1 ![0, 1] bcast_S256x128_S256x128x1_0_1 R)

theorem keep_at {α : Type} (R : S256x128.Idx → α) (b : Fin 256) (r q : Fin 128) : keep R (ix3 b r q) = R (ix2 b r) := by
  unfold keep
  refine (broadcastInDim_apply _ bcast_S256x128x1_S256x128x128_0_1_2 _ (ix3 b r q) (ix3 b r (0 : Fin 1)) ?_).trans ?_
  · intro a
    match a with
    | ⟨0, _⟩ => show b.val = if (256 : Nat) = 1 then 0 else b.val; rw [if_neg (by decide)]
    | ⟨1, _⟩ => show r.val = if (128 : Nat) = 1 then 0 else r.val; rw [if_neg (by decide)]
    | ⟨2, _⟩ => show 0 = if (1 : Nat) = 1 then 0 else q.val; rw [if_pos rfl]
  · refine broadcastInDim_apply _ bcast_S256x128_S256x128x1_0_1 R (ix3 b r (0 : Fin 1)) (ix2 b r) ?_
    intro a
    match a with
    | ⟨0, _⟩ => show b.val = if (256 : Nat) = 1 then 0 else b.val; rw [if_neg (by decide)]
    | ⟨1, _⟩ => show r.val = if (128 : Nat) = 1 then 0 else r.val; rw [if_neg (by decide)]

/-- The row maxima: the maximum-reduce over the last axis from -∞, compared with -∞ once more. -/
def rowMaxArr (X : FVec Ideal S256x128x128 .f32) : FVec Ideal S256x128 .f32 :=
  maximumf (broadcastInDim S256x128 ![] bcast_S_S256x128 (constant (F := Ideal) S_ .f32 0xFF800000#32))
    (Host.reduce FloatOps.maximumf X (constant (F := Ideal) S_ .f32 0xFF800000#32) reducesTo_S256x128x128_S256x128_d2 h_S_)

theorem rowMaxArr_at (X : FVec Ideal S256x128x128 .f32) (b : Fin 256) (r : Fin 128) :
    rowMaxArr X (ix2 b r) = rowMax (fun q : Fin 128 => X (ix3 b r q)) := by
  unfold rowMaxArr rowMax
  rw [maximumf_apply]
  refine congrArg₂ max ?_ ?_
  · exact broadcastInDim_apply _ bcast_S_S256x128 _ (ix2 b r) ix0 (fun a => a.elim0)
  · have h : S256x128x128.Reduces [2] S256x128 := by decide
    refine (Host.reduce_eq_fold_single FloatOps.maximumf X _ reducesTo_S256x128x128_S256x128_d2 h h_S_ (ix2 b r)).trans ?_
    have hf : (X ∘ h.lift (ix2 b r)) = fun k : Fin 128 => X (ix3 b r k) := funext fun k => congrArg X (lift_row h b r k)
    exact congrArg (fun f => Finset.fold max negInf f (Finset.univ : Finset (Fin 128))) hf

/-- The exponentials of the entries less their row's maximum. -/
def expArr (X : FVec Ideal S256x128x128 .f32) : FVec Ideal S256x128x128 .f32 :=
  Host.exp (subf X (keep (rowMaxArr X)))

theorem expArr_at (X : FVec Ideal S256x128x128 .f32) (b : Fin 256) (r q : Fin 128) :
    expArr X (ix3 b r q) = Ideal.exp (X (ix3 b r q) - rowMax (fun q' : Fin 128 => X (ix3 b r q'))) := by
  show Ideal.exp (X (ix3 b r q) - keep (rowMaxArr X) (ix3 b r q)) = _
  rw [keep_at, rowMaxArr_at]

/-- The row sums: the sum-reduce over the last axis from 0. -/
def sumArr (E : FVec Ideal S256x128x128 .f32) : FVec Ideal S256x128 .f32 :=
  Host.reduceAdd E (constant (F := Ideal) S_ .f32 0x00000000#32) reducesTo_S256x128x128_S256x128_d2 h_S_

theorem sumArr_at (E : FVec Ideal S256x128x128 .f32) (b : Fin 256) (r : Fin 128) :
    sumArr E (ix2 b r) = ∑ k : Fin 128, E (ix3 b r k) := by
  unfold sumArr
  simp only [Host.reduceAdd, Ideal.hostReduceAdd_def]
  have h : S256x128x128.Reduces [2] S256x128 := by decide
  rw [Ideal.hostReduceAdd_single reducesTo_S256x128x128_S256x128_d2 h]
  refine (congrArg (· + _) (show constant (F := Ideal) S_ .f32 0x00000000#32 (Shape.Idx.first h_S_) = 0 from Ideal.ofBits_zero_f32)).trans ?_
  rw [zero_add]
  exact Finset.sum_congr rfl fun k _ => congrArg E (lift_row h b r k)

/-- The softmax over the last axis: the exponentials over their row's sum put back beside them. -/
def softmaxLast (X : FVec Ideal S256x128x128 .f32) : FVec Ideal S256x128x128 .f32 :=
  Host.divf (expArr X) (keep (sumArr (expArr X)))

/-- At (b, r, q) it is the specification's row softmax of row (b, r), at q. -/
theorem softmaxLast_at (X : FVec Ideal S256x128x128 .f32) (b : Fin 256) (r q : Fin 128) :
    softmaxLast X (ix3 b r q) = softRow (fun q' : Fin 128 => X (ix3 b r q')) q := by
  show Ideal.div (expArr X (ix3 b r q)) (keep (sumArr (expArr X)) (ix3 b r q)) = _
  rw [keep_at, sumArr_at, expArr_at]
  unfold softRow
  refine congrArg (Ideal.div _) (Finset.sum_congr rfl fun k _ => expArr_at X b r k)

/-- The two softmaxes of the program are this one, of the masked scores and of the transposed masked scores. -/
theorem v60_eq : Read.val_main_v60 (F := Ideal) x0 x1 x2 x3 x4 x5 = softmaxLast (Read.val_main_v49 (F := Ideal) x0 x1 x2 x3 x4 x5) := rfl

theorem v74_eq : Read.val_main_v74 (F := Ideal) x0 x1 x2 x3 x4 x5 = softmaxLast (Read.val_main_v63 (F := Ideal) x0 x1 x2 x3 x4 x5) := rfl

/-! ## The transposed scores, masked once more -/

/-- The transposed masked score at (b, s, t), masked by the mask at (b, s, t), is the specification's. -/
theorem scoreT_at (b : Fin 256) (s t : Fin 128) :
    Read.val_main_v63 (F := Ideal) x0 x1 x2 x3 x4 x5 (ix3 b s t)
      = scoreT (rowsOf (Read.val_main_v41 (F := Ideal) x1 x5) b) (rowsOf (Read.val_main_v20 (F := Ideal) x0 x4) b)
          (maskOf x2 x3 b) (maskOfT x2 x3 b) s t := by
  rw [val_main_v63_apply, mask_at, val_main_v62_apply, val_main_call3_v1_apply, val_main_call3_v0_apply, val_main_cst_18_apply]
  have e : idx_main_v62 (ix3 b s t) = ix3 b t s :=
    funext fun a => Fin.ext (by match a with | ⟨0, _⟩ => rfl | ⟨1, _⟩ => rfl | ⟨2, _⟩ => rfl)
  rw [e, score_at]
  rfl

/-! ## The four arrays -/

/-- The target-to-source weights. -/
theorem ref_ta_soft : Read.val_main_v60 (F := Ideal) x0 x1 x2 x3 x4 x5
    = taSoftArr (Read.val_main_v41 (F := Ideal) x1 x5) (Read.val_main_v20 (F := Ideal) x0 x4) x2 x3 := by
  funext i
  obtain ⟨b, t, s, rfl⟩ : ∃ (b : Fin 256) (t : Fin 128) (s : Fin 128), i = ix3 b t s := ⟨i 0, i 1, i 2, eq_ix3 i⟩
  rw [v60_eq, softmaxLast_at]
  show _ = softRow (fun s' => score (rowsOf (Read.val_main_v41 (F := Ideal) x1 x5) b)
    (rowsOf (Read.val_main_v20 (F := Ideal) x0 x4) b) (maskOf x2 x3 b) t s') s
  exact congrArg (fun f => softRow f s) (funext fun s' => score_at x0 x1 x2 x3 x4 x5 b t s')

/-- The source-to-target weights. -/
theorem ref_at_soft : Read.val_main_v74 (F := Ideal) x0 x1 x2 x3 x4 x5
    = atSoftArr (Read.val_main_v41 (F := Ideal) x1 x5) (Read.val_main_v20 (F := Ideal) x0 x4) x2 x3 := by
  funext i
  obtain ⟨b, s, t, rfl⟩ : ∃ (b : Fin 256) (s : Fin 128) (t : Fin 128), i = ix3 b s t := ⟨i 0, i 1, i 2, eq_ix3 i⟩
  rw [v74_eq, softmaxLast_at]
  show _ = softRow (fun t' => scoreT (rowsOf (Read.val_main_v41 (F := Ideal) x1 x5) b)
    (rowsOf (Read.val_main_v20 (F := Ideal) x0 x4) b) (maskOf x2 x3 b) (maskOfT x2 x3 b) s t') t
  exact congrArg (fun f => softRow f t) (funext fun t' => scoreT_at x0 x1 x2 x3 x4 x5 b s t')

/-- The source attention: the target-to-source weights times the source rows. -/
theorem ref_src_att : Read.val_main_v61 (F := Ideal) x0 x1 x2 x3 x4 x5
    = srcAttArr (Read.val_main_v41 (F := Ideal) x1 x5) (Read.val_main_v20 (F := Ideal) x0 x4) x2 x3 := by
  funext i
  obtain ⟨b, t, k, rfl⟩ : ∃ (b : Fin 256) (t : Fin 128) (k : Fin 1024), i = ix3 b t k := ⟨i 0, i 1, i 2, eq_ix3 i⟩
  rw [val_main_v61_apply]
  show _ = ∑ s : Fin 128, taSoft (rowsOf (Read.val_main_v41 (F := Ideal) x1 x5) b)
    (rowsOf (Read.val_main_v20 (F := Ideal) x0 x4) b) (maskOf x2 x3 b) t s * Read.val_main_v20 (F := Ideal) x0 x4 (ix3 b s k)
  refine Finset.sum_congr rfl fun s _ => ?_
  have el : lidx_main_v61 (ix3 b t k) s = ix3 b t s :=
    funext fun a => Fin.ext (by match a with | ⟨0, _⟩ => rfl | ⟨1, _⟩ => rfl | ⟨2, _⟩ => rfl)
  have er : ridx_main_v61 (ix3 b t k) s = ix3 b s k :=
    funext fun a => Fin.ext (by match a with | ⟨0, _⟩ => rfl | ⟨1, _⟩ => rfl | ⟨2, _⟩ => rfl)
  rw [el, er, ref_ta_soft]
  rfl

/-- The target attention: the source-to-target weights times the target rows. -/
theorem ref_tgt_att : Read.val_main_v75 (F := Ideal) x0 x1 x2 x3 x4 x5
    = tgtAttArr (Read.val_main_v41 (F := Ideal) x1 x5) (Read.val_main_v20 (F := Ideal) x0 x4) x2 x3 := by
  funext i
  obtain ⟨b, s, k, rfl⟩ : ∃ (b : Fin 256) (s : Fin 128) (k : Fin 1024), i = ix3 b s k := ⟨i 0, i 1, i 2, eq_ix3 i⟩
  rw [val_main_v75_apply]
  show _ = ∑ t : Fin 128, atSoft (rowsOf (Read.val_main_v41 (F := Ideal) x1 x5) b)
    (rowsOf (Read.val_main_v20 (F := Ideal) x0 x4) b) (maskOf x2 x3 b) (maskOfT x2 x3 b) s t
      * Read.val_main_v41 (F := Ideal) x1 x5 (ix3 b t k)
  refine Finset.sum_congr rfl fun t _ => ?_
  have el : lidx_main_v75 (ix3 b s k) t = ix3 b s t :=
    funext fun a => Fin.ext (by match a with | ⟨0, _⟩ => rfl | ⟨1, _⟩ => rfl | ⟨2, _⟩ => rfl)
  have er : ridx_main_v75 (ix3 b s k) t = ix3 b t k :=
    funext fun a => Fin.ext (by match a with | ⟨0, _⟩ => rfl | ⟨1, _⟩ => rfl | ⟨2, _⟩ => rfl)
  rw [el, er, ref_at_soft]
  rfl

end Cert.ReferenceIdeal.Arrays

end
-- ==== Proof.PooledSame.lean ====
/-
  The two programs gather and smooth alike.

  The reference program applies to its token ids and its embedding table the same operations, in the same order and
  with the same literals, as the kernel's program applies before its region: wrap negative ids, gather the table's rows,
  pad one row before and after each sentence, add the three shifted copies, divide by the window sizes (3, and 2 at the
  two end positions). Both compositions unfold to the same term over the arguments, which stay variables: nothing of an
  array is evaluated.
-/
import proofs.«170620_j29867202576855_2_alg».proof.Proof.HostSide
import proofs.«170620_j29867202576855_2_alg».proof.Proof.Gen.ReferenceIdeal.Read

noncomputable section

namespace Cert.PooledSame

open Idealize.ShloMosaic Idealize.SL.Sem

/-- The source sentence: the kernel program's gathered and smoothed rows are the reference program's. -/
theorem pooled_eq_v20 (x0 : (⟨Cert.KernelIdeal.S256x128, .i32⟩ : BufTy).Contents (Elt Ideal))
    (x4 : (⟨Cert.KernelIdeal.S32000x1024, .f32⟩ : BufTy).Contents (Elt Ideal)) :
    Cert.KernelIdeal.HostSide.pooled x0 x4 = Cert.ReferenceIdeal.Read.val_main_v20 (F := Ideal) x0 x4 := rfl

/-- The target sentence: likewise. -/
theorem pooled_eq_v41 (x1 : (⟨Cert.KernelIdeal.S256x128, .i32⟩ : BufTy).Contents (Elt Ideal))
    (x5 : (⟨Cert.KernelIdeal.S32000x1024, .f32⟩ : BufTy).Contents (Elt Ideal)) :
    Cert.KernelIdeal.HostSide.pooled x1 x5 = Cert.ReferenceIdeal.Read.val_main_v41 (F := Ideal) x1 x5 := rfl

end Cert.PooledSame

end
-- ==== Proof.lean ====
/-
  Two-way masked attention between a source and a target sentence: the kernel against its reference, at the ideal
  values.

  Both programs gather each sentence's embedding rows and smooth them along the sentence (one chain of host
  operations of the token ids and the table, the same in both programs, carried here as one function and never
  opened), and return the smoothed source rows S and target rows T together with four arrays, batch element by batch
  element: the masked scores (t, s) ↦ ⟨T t, S s⟩ where source position s and target position t are both valid and
  -999 elsewhere; their row softmax (the target-to-source weights); those weights times S (the source attention);
  the transposed masked scores, masked once more, and their row softmax (the source-to-target weights); and those
  weights times T (the target attention). `Cert.TwoWayAttn` states the four arrays index by index.

  The kernel computes them eight batch elements at a time, one block per grid point, from blocks of the same rows
  and from the validity bits as 0/1 integers whose product it compares with zero — the conjunction of the two bits.
  Each stored block, read at an index, is the specification of that batch element's rows (`Cert.KernelIdeal.Rows`);
  the blocks of the thirty-two grid points tile each output array, so each whole array is the specification of the
  whole argument arrays (`Cert.KernelIdeal.Arrays`). The reference computes the same four arrays operation by
  operation on the whole arrays (`Cert.ReferenceIdeal.Arrays`). No step uses an algebraic law that could fail at an
  infinite value: the two sides are one function index by index, so the precondition is never opened.
-/
import proofs.«170620_j29867202576855_2_alg».proof.Defs
import proofs.«170620_j29867202576855_2_alg».proof.Proof.Gen.Kernel
import proofs.«170620_j29867202576855_2_alg».proof.Proof.Gen.Kernel.Skeleton
import proofs.«170620_j29867202576855_2_alg».proof.Proof.Gen.Kernel.Launch
import proofs.«170620_j29867202576855_2_alg».proof.Proof.Gen.Kernel.Points
import proofs.«170620_j29867202576855_2_alg».proof.Proof.Gen.Kernel.Frame
import proofs.«170620_j29867202576855_2_alg».proof.Proof.Gen.KernelIdeal
import proofs.«170620_j29867202576855_2_alg».proof.Proof.Gen.KernelIdeal.Skeleton
import proofs.«170620_j29867202576855_2_alg».proof.Proof.Gen.KernelIdeal.Launch
import proofs.«170620_j29867202576855_2_alg».proof.Proof.Gen.KernelIdeal.Points
import proofs.«170620_j29867202576855_2_alg».proof.Proof.Gen.KernelIdeal.Frame
import proofs.«170620_j29867202576855_2_alg».proof.Proof.Gen.KernelIdeal.Value
import proofs.«170620_j29867202576855_2_alg».proof.Proof.Gen.ReferenceIdeal
import proofs.«170620_j29867202576855_2_alg».proof.Proof.Gen.ReferenceIdeal.Run
import proofs.«170620_j29867202576855_2_alg».proof.Proof.Gen.ReferenceIdeal.Read
import proofs.«170620_j29867202576855_2_alg».proof.Proof.Gen.Pre_finite_inputs
import proofs.«170620_j29867202576855_2_alg».proof.Proof.AttnSpec
import proofs.«170620_j29867202576855_2_alg».proof.Proof.KernelRows
import proofs.«170620_j29867202576855_2_alg».proof.Proof.HostSide
import proofs.«170620_j29867202576855_2_alg».proof.Proof.KernelArrays
import proofs.«170620_j29867202576855_2_alg».proof.Proof.RefArrays
import proofs.«170620_j29867202576855_2_alg».proof.Proof.PooledSame
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel [Cert.Kernel.Facts] [Cert.Pre_finite_inputs.Facts] : Cert.frame_Kernel :=
  fun m ρ _ => Cert.Kernel.Gen.frame m ρ

/-- So does the idealized kernel. -/
theorem frame_kernel_ideal [Cert.KernelIdeal.Facts] [Cert.Pre_finite_inputs.Facts] : Cert.frame_KernelIdeal :=
  fun m ρ _ => Cert.KernelIdeal.Gen.frame m ρ

/-- The reference is host operations only: its run, with the results forgotten, is its frame. -/
theorem frame_reference [Cert.ReferenceIdeal.Facts] [Cert.Pre_finite_inputs.Facts] : Cert.frame_ReferenceIdeal :=
  fun m ρ _ => (θ_run Cert.ReferenceIdeal.defs _ _).mono (fun _ h c => (h c).2.2.2.2.2.2)
    (Cert.ReferenceIdeal.Value.run (F := Ideal) m ρ)

/-- The idealization rewrote nothing. -/
theorem preserves : Cert.preserves_Kernel_KernelIdeal := trivial

/-- Both programs, from memories that agree on the arguments, end with the same six arrays: the smoothed source and
    target rows (one shared chain of host operations of the token ids and the tables), and the four attention arrays,
    which each program computes as the same function of those rows and of the validity bits. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, _, _, _, _, Cert.KernelIdeal.Arrays.run m ρ, ?_⟩
  refine (θ_run Cert.ReferenceIdeal.defs _ _).mono (fun r h c => ?_) (Cert.ReferenceIdeal.Value.run (F := Ideal) m' ρ')
  obtain ⟨h0, h1, h2, h3, h4, h5, hargs⟩ := h c
  obtain ⟨a0, a1, a2, a3, a4, a5⟩ := hagree c
  refine ⟨?_, ?_, ?_, ?_, ?_, ?_, hargs⟩
  · rw [h0, Cert.ReferenceIdeal.Read.val_main_v20_eq, a0, a4, ← Cert.PooledSame.pooled_eq_v20]
  · rw [h1, Cert.ReferenceIdeal.Read.val_main_v61_eq, Cert.ReferenceIdeal.Arrays.ref_src_att, a0, a1, a2, a3, a4, a5,
      ← Cert.PooledSame.pooled_eq_v20, ← Cert.PooledSame.pooled_eq_v41]
  · rw [h2, Cert.ReferenceIdeal.Read.val_main_v74_eq, Cert.ReferenceIdeal.Arrays.ref_at_soft, a0, a1, a2, a3, a4, a5,
      ← Cert.PooledSame.pooled_eq_v20, ← Cert.PooledSame.pooled_eq_v41]
  · rw [h3, Cert.ReferenceIdeal.Read.val_main_v41_eq, a1, a5, ← Cert.PooledSame.pooled_eq_v41]
  · rw [h4, Cert.ReferenceIdeal.Read.val_main_v75_eq, Cert.ReferenceIdeal.Arrays.ref_tgt_att, a0, a1, a2, a3, a4, a5,
      ← Cert.PooledSame.pooled_eq_v20, ← Cert.PooledSame.pooled_eq_v41]
  · rw [h5, Cert.ReferenceIdeal.Read.val_main_v60_eq, Cert.ReferenceIdeal.Arrays.ref_ta_soft, a0, a1, a2, a3, a4, a5,
      ← Cert.PooledSame.pooled_eq_v20, ← Cert.PooledSame.pooled_eq_v41]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
